-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S2x1x1x2048 : Shape := ⟨4, ![2, 1, 1, 2048]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2x1x1x2048 : S_.BroadcastsInDim S2x1x1x2048 (![] : Fin 0 → Fin S2x1x1x2048.rank)
  reducesTo_S2x1x1x2048_S_d0_1_2_3 : S2x1x1x2048.ReducesTo [0, 1, 2, 3] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  main_v28

def fn {F : FTy → Type} [FloatOps F] (main_arg0 : FVec F S2x2048x1024 .f32) (main_arg1 : FVec F S2x1x1x2048 .f32) (main_arg2 : FVec F S1024x1024 .f32) (main_arg3 : FVec F S1024x1024 .f32) (main_arg4 : FVec F S1024x1024 .f32) (main_arg5 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x1x1x2048 .f32 := Host.absf main_arg1
  let main_cst_0 : FVec F S_ .f32 := constant S_ .f32 0x7F800000#32
  let main_v5 : FVec F S2x1x1x2048 .f32 := broadcastInDim S2x1x1x2048 ![] bcast_S_S2x1x1x2048 main_cst_0
  let main_v6 : IVec S2x1x1x2048 1 := cmpf .olt main_v4 main_v5
  let main_c_1 : IVec S_ 1 := constantI S_ 1 1#1
  let main_v7 : IVec S_ 1 := (fun x v => Host.reduce IntOp.andi x v reducesTo_S2x1x1x2048_S_d0_1_2_3 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S2x2048x1024 : Shape := ⟨3, ![2, 2048, 1024]⟩
abbrev S2x1x1x2048 : Shape := ⟨4, ![2, 1, 1, 2048]⟩
abbrev S1024x1024 : Shape := ⟨2, ![1024, 1024]⟩
abbrev S1x2048x1024 : Shape := ⟨3, ![1, 2048, 1024]⟩
abbrev S1x1x1x2048 : Shape := ⟨4, ![1, 1, 1, 2048]⟩
abbrev S1x512x1024 : Shape := ⟨3, ![1, 512, 1024]⟩
abbrev S2048x1024 : Shape := ⟨2, ![2048, 1024]⟩
abbrev S512x1024 : Shape := ⟨2, ![512, 1024]⟩
abbrev S2048 : Shape := ⟨1, ![2048]⟩
abbrev S1x2048 : Shape := ⟨2, ![1, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S2x2048x1024, .f32⟩
  | .hbm, ⟨1, _⟩ => ⟨S2x1x1x2048, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S2x2048x1024, .f32⟩
  | .local _ .vmem, ⟨0, _⟩ => ⟨S1x2048x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1x1x1x2048, .f32⟩
  | .local _ .vmem, ⟨6, _⟩ => ⟨S1x512x1024, .f32⟩
  | .local _ .vmem, ⟨7, _⟩ => ⟨S1x512x1024, .f32⟩
  | .local _ .vmem, ⟨8, _⟩ => ⟨S2048x1024, .bf16⟩
  | .local _ .vmem, ⟨9, _⟩ => ⟨S2048x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7

abbrev nD : Nat := 1
abbrev τ : Topo := Topo.v7x

variable {F : FTy → Type} [FloatOps F]

abbrev grid0 : Pipeline.Grid := ⟨2, ![2, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 3 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  h_S1x512x1024 : 0 < S1x512x1024.numel
  shapeCasts_S1x512x1024_S512x1024 : S1x512x1024.ShapeCasts S512x1024
  inb_S1x1x1x2048_S1x1x1x2048_0_0_0_0 : ∀ a, (![0, 0, 0, 0] : Fin 4 → Nat) a + S1x1x1x2048.size a ≤ S1x1x1x2048.size a
  h_S1x1x1x2048 : 0 < S1x1x1x2048.numel
  shapeCasts_S1x1x1x2048_S2048 : S1x1x1x2048.ShapeCasts S2048
  shapeCasts_S2048_S1x2048 : S2048.ShapeCasts S1x2048
  slices_S512x1024_o0_0_S512x64 : S512x1024.Slices ![0, 0] S512x64
  inb_S2048x1024_S2048x64_0_0 : ∀ a, (![0, 0] : Fin 2 → Nat) a + S2048x64.size a ≤ S2048x1024.size a
  h_S2048x64 : 0 < S2048x64.numel
  broadcasts_S1x2048_S512x2048 : S1x2048.Broadcasts S512x2048
  reduces_S512x2048_S512 : S512x2048.Reduces [1] S512
  shapeCasts_S512_S512x1 : S512.ShapeCasts S512x1
  broadcasts_S512x1_S512x2048 : S512x1.Broadcasts S512x2048
  slices_S512x1024_o0_64_S512x64 : S512x1024.Slices ![0, 64] S512x64
  inb_S2048x1024_S2048x64_0_64 : ∀ a, (![0, 64] : Fin 2 → Nat) a + S2048x64.size a ≤ S2048x1024.size a
  slices_S512x1024_o0_128_S512x64 : S512x1024.Slices ![0, 128] S512x64
  inb_S2048x1024_S2048x64_0_128 : ∀ a, (![0, 128] : Fin 2 → Nat) a + S2048x64.size a ≤ S2048x1024.size a
  slices_S512x1024_o0_192_S512x64 : S512x1024.Slices ![0, 192] S512x64
  inb_S2048x1024_S2048x64_0_192 : ∀ a, (![0, 192] : Fin 2 → Nat) a + S2048x64.size a ≤ S2048x1024.size a
  slices_S512x1024_o0_256_S512x64 : S512x1024.Slices ![0, 256] S512x64
  inb_S2048x1024_S2048x64_0_256 : ∀ a, (![0, 256] : Fin 2 → Nat) a + S2048x64.size a ≤ S2048x1024.size a
  slices_S512x1024_o0_320_S512x64 : S512x1024.Slices ![0, 320] S512x64
  inb_S2048x1024_S2048x64_0_320 : ∀ a, (![0, 320] : Fin 2 → Nat) a + S2048x64.size a ≤ S2048x1024.size a
  slices_S512x1024_o0_384_S512x64 : S512x1024.Slices ![0, 384] S512x64
  inb_S2048x1024_S2048x64_0_384 : ∀ a, (![0, 384] : Fin 2 → Nat) a + S2048x64.size a ≤ S2048x1024.size a
  slices_S512x1024_o0_448_S512x64 : S512x1024.Slices ![0, 448] S512x64
  inb_S2048x1024_S2048x64_0_448 : ∀ a, (![0, 448] : Fin 2 → Nat) a + S2048x64.size a ≤ S2048x1024.size a
  slices_S512x1024_o0_512_S512x64 : S512x1024.Slices ![0, 512] S512x64
  inb_S2048x1024_S2048x64_0_512 : ∀ a, (![0, 512] : Fin 2 → Nat) a + S2048x64.size a ≤ S2048x1024.size a
  slices_S512x1024_o0_576_S512x64 : S512x1024.Slices ![0, 576] S512x64
  inb_S2048x1024_S2048x64_0_576 : ∀ a, (![0, 576] : Fin 2 → Nat) a + S2048x64.size a ≤ S2048x1024.size a
  slices_S512x1024_o0_640_S512x64 : S512x1024.Slices ![0, 640] S512x64
  inb_S2048x1024_S2048x64_0_640 : ∀ a, (![0, 640] : Fin 2 → Nat) a + S2048x64.size a ≤ S2048x1024.size a
  slices_S512x1024_o0_704_S512x64 : S512x1024.Slices ![0, 704] S512x64
  inb_S2048x1024_S2048x64_0_704 : ∀ a, (![0, 704] : Fin 2 → Nat) a + S2048x64.size a ≤ S2048x1024.size a
  slices_S512x1024_o0_768_S512x64 : S512x1024.Slices ![0, 768] S512x64
  inb_S2048x1024_S2048x64_0_768 : ∀ a, (![0, 768] : Fin 2 → Nat) a + S2048x64.size a ≤ S2048x1024.size a
  slices_S512x1024_o0_832_S512x64 : S512x1024.Slices ![0, 832] S512x64
  inb_S2048x1024_S2048x64_0_832 : ∀ a, (![0, 832] : Fin 2 → Nat) a + S2048x64.size a ≤ S2048x1024.size a
  slices_S512x1024_o0_896_S512x64 : S512x1024.Slices ![0, 896] S512x64
  inb_S2048x1024_S2048x64_0_896 : ∀ a, (![0, 896] : Fin 2 → Nat) a + S2048x64.size a ≤ S2048x1024.size a
  slices_S512x1024_o0_960_S512x64 : S512x1024.Slices ![0, 960] S512x64
  inb_S2048x1024_S2048x64_0_960 : ∀ a, (![0, 960] : Fin 2 → Nat) a + S2048x64.size a ≤ S2048x1024.size a
  concatenates_S512x64_S512x64_S512x64_S512x64_S512x64_S512x64_S512x64_S512x64_S512x64_S512x64_S512x64_S512x64_S512x64_S512x64_S512x64_S512x64_S512x1024_d1 : Shape.Concatenates [S512x64, S512x64, S512x64, S512x64, S512x64, S512x64, S512x64, S512x64, S512x64, S512x64, S512x64, S512x64, S512x64, S512x64, S512x64, S512x64] S512x1024 1
  inb_S1x512x1024_S1x512x1024_0_0_0 : ∀ a, (![0, 0, 0] : Fin 3 → Nat) a + S1x512x1024.size a ≤ S1x512x1024.size a
  shapeCasts_S512x1024_S1x512x1024 : S512x1024.ShapeCasts S1x512x1024
  dot_S2048x1024_S1024x1024_S2048x1024_1_1_0_0_n_n_wf : DotDims.WF S2048x1024 S1024x1024 S2048x1024 [1] [1] [0] [0] [] []
  dot_S512x1024_S1024x1024_S512x1024_1_1_0_0_n_n_wf : DotDims.WF S512x1024 S1024x1024 S512x1024 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512x1024.size a ≤ S1x2048x1024.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S2x2048x1024.size a
  hwx0_0 : ∀ i : grid0.Coords, EltTy.bits .f32 = 32 ∨ (Rect.block (s := S2x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .f32 = 32 ∨ (Rect.block (s := S1024x1024) S1024x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1x1x2048.size a ≤ S2x1x1x2048.size a
  hwx0_5 : ∀ i : grid0.Coords, EltTy.bits .f32 = 32 ∨ (Rect.block (s := S2x1x1x2048) S1x1x1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x1024.size a ≤ S2x2048x1024.size a
  hwx0_6 : ∀ i : grid0.Coords, EltTy.bits .f32 = 32 ∨ (Rect.block (s := S2x2048x1024) S1x512x1024.size (cc0_transform_6 i) (hinb0_6 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x2048x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S1x1x1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2x2048x1024 : Shape := ⟨3, ![2, 2048, 1024]⟩
abbrev S2x1x1x2048 : Shape := ⟨4, ![2, 1, 1, 2048]⟩
abbrev S1024x1024 : Shape := ⟨2, ![1024, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 40
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x1x1x2048, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S2x2048x1024, .f32⟩
  | .hbm, ⟨7, _⟩ => ⟨S2x2048x16x64, .f32⟩
  | .hbm, ⟨8, _⟩ => ⟨S2x16x2048x64, .f32⟩
  | .hbm, ⟨9, _⟩ => ⟨S2x2048x1024, .f32⟩
  | .hbm, ⟨10, _⟩ => ⟨S2x2048x16x64, .f32⟩
  | .hbm, ⟨11, _⟩ => ⟨S2x16x2048x64, .f32⟩
  | .hbm, ⟨12, _⟩ => ⟨S2x2048x1024, .f32⟩
  | .hbm, ⟨13, _⟩ => ⟨S2x2048x16x64, .f32⟩
  | .hbm, ⟨14, _⟩ => ⟨S2x16x2048x64, .f32⟩
  | .hbm, ⟨15, _⟩ => ⟨S2x16x2048x2048, .f32⟩
  | .hbm, ⟨16, _⟩ => ⟨S_, .f32⟩
  | .hbm, ⟨17, _⟩ => ⟨S_, .f32⟩
  | .hbm, ⟨18, _⟩ => ⟨S2x16x2048x2048, .f32⟩
  | .hbm, ⟨19, _⟩ => ⟨S2x16x2048x2048, .f32⟩
  | .hbm, ⟨20, _⟩ => ⟨S2x16x2048x2048, .f32⟩
  | .hbm, ⟨21, _⟩ => ⟨S2x16x2048x2048, .f32⟩
  | .hbm, ⟨22, _⟩ => ⟨S_, .f32⟩
  | .hbm, ⟨23, _⟩ => ⟨S2x16x2048, .f32⟩
  | .hbm, ⟨24, _⟩ => ⟨S_, .f32⟩
  | .hbm, ⟨25, _⟩ => ⟨S2x16x2048, .f32⟩
  | .hbm, ⟨26, _⟩ => ⟨S2x16x2048, .f32⟩
  | .hbm, ⟨27, _⟩ => ⟨S2x16x2048x1, .f32⟩
  | .hbm, ⟨28, _⟩ => ⟨S2x16x2048x2048, .f32⟩
  | .hbm, ⟨29, _⟩ => ⟨S2x16x2048x2048, .f32⟩
  | .hbm, ⟨30, _⟩ => ⟨S2x16x2048x2048, .f32⟩
  | .hbm, ⟨31, _⟩ => ⟨S_, .f32⟩
  | .hbm, ⟨32, _⟩ => ⟨S2x16x2048, .f32⟩
  | .hbm, ⟨33, _⟩ => ⟨S2x16x2048x1, .f32⟩
  | .hbm, ⟨34, _⟩ => ⟨S2x16x2048x2048, .f32⟩
  | .hbm, ⟨35, _⟩ => ⟨S2x16x2048x2048, .f32⟩
  | .hbm, ⟨36, _⟩ => ⟨S2x16x2048x64, .f32⟩
  | .hbm, ⟨37, _⟩ => ⟨S2x2048x16x64, .f32⟩
  | .hbm, ⟨38, _⟩ => ⟨S2x2048x1024, .f32⟩
  | .hbm, ⟨39, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]

class Facts₀ : Prop where
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  bcast_S2x1x1x2048_S2x16x2048x2048_0_1_2_3 : S2x1x1x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.BodyDef.lean ====
/-
  The value one grid point stores into its output block, as ONE function of what the body loads: the 512 query rows of
  the batch member's input, the four weight matrices' blocks, the mask row, and for each of the 16 heads the 64-column
  slices of the cached keys and values. Each head's context is computed from the query tile's 64-column slice and the
  head's key and value slices; the sixteen contexts are laid side by side and multiplied by the output weights.
-/
import proofs.«111237_j47356309406164_2_alg».proof.Proof.Gen.KernelIdeal.Skeleton
import Idealize.ShloMosaic.Lib.Pipeline.Value

noncomputable section

namespace Cert.KernelIdeal.Body

open Cert.KernelIdeal Cert.KernelIdeal.Gen Idealize.ShloMosaic Idealize.SL.Sem

variable {F : FTy → Type} [FloatOps F]

/-- Head `h`'s 64 columns of a cached [2048, 1024] array: the block the body loads at column offset `64·h`. -/
def slice64 (X : Vec F S2048x1024 .bf16) : Fin 16 → Vec F S2048x64 .bf16
  | ⟨0, _⟩ => View.ld X (Rect.unit (s := S2048x1024) ![0, 0] S2048x64.size inb_S2048x1024_S2048x64_0_0)
  | ⟨1, _⟩ => View.ld X (Rect.unit (s := S2048x1024) ![0, 64] S2048x64.size inb_S2048x1024_S2048x64_0_64)
  | ⟨2, _⟩ => View.ld X (Rect.unit (s := S2048x1024) ![0, 128] S2048x64.size inb_S2048x1024_S2048x64_0_128)
  | ⟨3, _⟩ => View.ld X (Rect.unit (s := S2048x1024) ![0, 192] S2048x64.size inb_S2048x1024_S2048x64_0_192)
  | ⟨4, _⟩ => View.ld X (Rect.unit (s := S2048x1024) ![0, 256] S2048x64.size inb_S2048x1024_S2048x64_0_256)
  | ⟨5, _⟩ => View.ld X (Rect.unit (s := S2048x1024) ![0, 320] S2048x64.size inb_S2048x1024_S2048x64_0_320)
  | ⟨6, _⟩ => View.ld X (Rect.unit (s := S2048x1024) ![0, 384] S2048x64.size inb_S2048x1024_S2048x64_0_384)
  | ⟨7, _⟩ => View.ld X (Rect.unit (s := S2048x1024) ![0, 448] S2048x64.size inb_S2048x1024_S2048x64_0_448)
  | ⟨8, _⟩ => View.ld X (Rect.unit (s := S2048x1024) ![0, 512] S2048x64.size inb_S2048x1024_S2048x64_0_512)
  | ⟨9, _⟩ => View.ld X (Rect.unit (s := S2048x1024) ![0, 576] S2048x64.size inb_S2048x1024_S2048x64_0_576)
  | ⟨10, _⟩ => View.ld X (Rect.unit (s := S2048x1024) ![0, 640] S2048x64.size inb_S2048x1024_S2048x64_0_640)
  | ⟨11, _⟩ => View.ld X (Rect.unit (s := S2048x1024) ![0, 704] S2048x64.size inb_S2048x1024_S2048x64_0_704)
  | ⟨12, _⟩ => View.ld X (Rect.unit (s := S2048x1024) ![0, 768] S2048x64.size inb_S2048x1024_S2048x64_0_768)
  | ⟨13, _⟩ => View.ld X (Rect.unit (s := S2048x1024) ![0, 832] S2048x64.size inb_S2048x1024_S2048x64_0_832)
  | ⟨14, _⟩ => View.ld X (Rect.unit (s := S2048x1024) ![0, 896] S2048x64.size inb_S2048x1024_S2048x64_0_896)
  | ⟨15, _⟩ => View.ld X (Rect.unit (s := S2048x1024) ![0, 960] S2048x64.size inb_S2048x1024_S2048x64_0_960)
  | ⟨n + 16, h⟩ => absurd h (by omega)

/-- The 512 query rows of the input block that the body loads at the point's row offset. -/
def qrows (i : grid0.Coords) (x0 : Vec F S1x2048x1024 .f32) : Vec F S1x512x1024 .f32 :=
  View.ld x0 (Rect.unit (s := S1x2048x1024) (k0_off1 i) S1x512x1024.size (k0_off1_inb i))

/-- The stored block from the loaded values: `v6` the query rows, `v9` / `v322` the query and output weights, `v13` the
    mask row, `kk h` / `vv h` head `h`'s key and value slices. -/
def bodyVal (v6 : Vec F S1x512x1024 .f32) (v9 : Vec F S1024x1024 .f32) (v13 : Vec F S1x1x1x2048 .f32) (v322 : Vec F S1024x1024 .f32)
    (kk vv : Fin 16 → Vec F S2048x64 .bf16) : FVec F S1x512x1024 .f32 :=
  k0_pay1
    (k0_pay29 (k0_pay5 v6 v9) (k0_pay6 v13)
      (k0_pay7 v6 v9 v13 (kk 0) (vv 0))
      (k0_pay9 (k0_pay6 v13) (k0_pay8 v6 v9) (kk 1) (vv 1))
      (k0_pay10 (k0_pay5 v6 v9) (k0_pay6 v13) (kk 2) (vv 2))
      (k0_pay12 (k0_pay6 v13) (k0_pay11 (k0_pay5 v6 v9)) (kk 3) (vv 3))
      (k0_pay13 (k0_pay5 v6 v9) (k0_pay6 v13) (kk 4) (vv 4))
      (k0_pay15 (k0_pay6 v13) (vv 5) (k0_pay14 (k0_pay5 v6 v9) (kk 5)))
      (k0_pay16 (k0_pay5 v6 v9) (k0_pay6 v13) (kk 6) (vv 6))
      (k0_pay19 (vv 7) (k0_pay17 (k0_pay5 v6 v9) (kk 7)) (k0_pay18 (k0_pay6 v13)))
      (k0_pay20 (k0_pay5 v6 v9) (k0_pay6 v13) (kk 8) (vv 8))
      (k0_pay23 (vv 9) (k0_pay21 (k0_pay5 v6 v9) (k0_pay6 v13) (kk 9)) (k0_pay22 (k0_pay5 v6 v9) (k0_pay6 v13) (kk 9)))
      (k0_pay24 (k0_pay5 v6 v9) (k0_pay6 v13) (kk 10) (vv 10))
      (k0_pay26 (vv 11) (k0_pay25 (k0_pay5 v6 v9) (k0_pay6 v13) (kk 11)))
      (k0_pay27 (k0_pay5 v6 v9) (k0_pay6 v13) (kk 12) (vv 12))
      (vv 13) (k0_pay28 (k0_pay5 v6 v9) (k0_pay6 v13) (kk 13))
      (kk 14) (vv 14) (kk 15) (vv 15))
    v322

end Cert.KernelIdeal.Body

end
-- ==== Proof.Spec.lean ====
/-
  Multi-head self-attention over the extended reals, entry by entry.

  For one batch member with rows `xb s` (2048 rows of 1024 entries) and additive key mask `mb k`:
  the projections `proj xb W s e = ∑ d, xb s d · W e d` (weights stored [out, in]); for head `h` (16 heads of 64
  columns, column `h·64 + d`) the scores `(∑ d, Q q (h,d) · K k (h,d)) · (1/8) + mb k`; the softmax over the keys
  taken with the row maximum subtracted; the context `∑ k, softmax k · V k (h,d)`; and the output projection
  `∑ d', ctx q d' · Wo e d'`. Sums are finite sums in `EReal`; nothing is assumed finite.
-/
import Idealize.ShloMosaic.PureOps.Ideal
import Idealize.ShloMosaic.Lib.ValueIdx

noncomputable section

open scoped BigOperators

namespace Cert.Attn

open Idealize.ShloMosaic Idealize.ShloMosaic.ValueIdx

/-- The score scale 1/8, as the f32 word the kernel multiplies by. -/
def c8 : EReal := Ideal.ofBits .f32 0x3E000000#32

/-- The f32 word of minus infinity: the value a row maximum starts from. -/
def negInf : EReal := Ideal.ofBits .f32 0xFF800000#32

/-- Column `h·64 + d` of a 1024-wide row: entry `d` of head `h`. -/
def col (h : Fin 16) (d : Fin 64) : Fin 1024 := ⟨h.val * 64 + d.val, by have := h.isLt; have := d.isLt; omega⟩

/-- The head a column belongs to, and its place inside the head. -/
def hd (e : Fin 1024) : Fin 16 := ⟨e.val / 64, by have := e.isLt; omega⟩
def ld (e : Fin 1024) : Fin 64 := ⟨e.val % 64, Nat.mod_lt _ (by decide)⟩

theorem col_hd_ld (e : Fin 1024) : col (hd e) (ld e) = e := Fin.ext (by
  show e.val / 64 * 64 + e.val % 64 = e.val
  have := Nat.div_add_mod e.val 64; omega)

theorem hd_col (h : Fin 16) (d : Fin 64) : hd (col h d) = h := Fin.ext (by
  show (h.val * 64 + d.val) / 64 = h.val
  have := d.isLt; omega)

theorem ld_col (h : Fin 16) (d : Fin 64) : ld (col h d) = d := Fin.ext (by
  show (h.val * 64 + d.val) % 64 = d.val
  have := d.isLt; omega)

/-- The maximum of a row of 2048 scores, folded from minus infinity. -/
def rowMax (s : Fin 2048 → EReal) : EReal := (Finset.univ : Finset (Fin 2048)).fold max negInf s

/-- The softmax weight of key `k` in a row of scores: `exp (s k − max) / ∑ k', exp (s k' − max)`. -/
def soft (s : Fin 2048 → EReal) (k : Fin 2048) : EReal :=
  Ideal.div (Ideal.exp (s k - rowMax s)) (∑ k' : Fin 2048, Ideal.exp (s k' - rowMax s))

/-- A linear projection with weights stored [out, in]: row `s` of `xb` against row `e` of `W`. -/
def proj {n : ℕ} (xb : Fin n → Fin 1024 → EReal) (W : (⟨2, ![1024, 1024]⟩ : Shape).Idx → EReal) (s : Fin n) (e : Fin 1024) : EReal :=
  ∑ d : Fin 1024, xb s d * W (ix2 e d)

/-- One head's score row from a query row `q` (64 entries), the keys `kk k d` and the mask row. -/
def scoreRow (q : Fin 64 → EReal) (kk : Fin 2048 → Fin 64 → EReal) (mb : Fin 2048 → EReal) (k : Fin 2048) : EReal :=
  (∑ d : Fin 64, q d * kk k d) * c8 + mb k

/-- One head's context entry: the softmax of the score row against one column `v` of the values. -/
def headVal (q : Fin 64 → EReal) (kk : Fin 2048 → Fin 64 → EReal) (mb : Fin 2048 → EReal) (v : Fin 2048 → EReal) : EReal :=
  ∑ k : Fin 2048, soft (scoreRow q kk mb) k * v k

/-- The context of query row `q`, column `e` (head `hd e`, place `ld e`), from the three projections' rows. -/
def ctxOf (Q : Fin 1024 → EReal) (K V : Fin 2048 → Fin 1024 → EReal) (mb : Fin 2048 → EReal) (e : Fin 1024) : EReal :=
  headVal (fun d => Q (col (hd e) d)) (fun k d => K k (col (hd e) d)) mb (fun k => V k e)

/-- The attention output for one batch member at query row `q` and output column `e`. -/
def outRow (xb : Fin 2048 → Fin 1024 → EReal) (mb : Fin 2048 → EReal)
    (Wq Wk Wv Wo : (⟨2, ![1024, 1024]⟩ : Shape).Idx → EReal) (q : Fin 2048) (e : Fin 1024) : EReal :=
  ∑ d' : Fin 1024, ctxOf (proj xb Wq q) (proj xb Wk) (proj xb Wv) mb d' * Wo (ix2 e d')

/-- The whole result array: batch `i 0`, query row `i 1`, output column `i 2`. -/
def G (X : (⟨3, ![2, 2048, 1024]⟩ : Shape).Idx → EReal) (M : (⟨4, ![2, 1, 1, 2048]⟩ : Shape).Idx → EReal)
    (Wq Wk Wv Wo : (⟨2, ![1024, 1024]⟩ : Shape).Idx → EReal) : (⟨3, ![2, 2048, 1024]⟩ : Shape).Idx → EReal :=
  fun i => outRow (fun s d => X (ix3 (i 0) s d)) (fun k => M (ix4 (i 0) (0 : Fin 1) (0 : Fin 1) k)) Wq Wk Wv Wo (i 1) (i 2)

theorem G_ix3 (X : (⟨3, ![2, 2048, 1024]⟩ : Shape).Idx → EReal) (M : (⟨4, ![2, 1, 1, 2048]⟩ : Shape).Idx → EReal)
    (Wq Wk Wv Wo : (⟨2, ![1024, 1024]⟩ : Shape).Idx → EReal) (b : Fin 2) (s : Fin 2048) (e : Fin 1024) :
    G X M Wq Wk Wv Wo (ix3 b s e)
      = outRow (fun s d => X (ix3 b s d)) (fun k => M (ix4 b (0 : Fin 1) (0 : Fin 1) k)) Wq Wk Wv Wo s e := rfl

end Cert.Attn

end
-- ==== Proof.Blocks.lean ====
/-
  Where each window's block sits in its array at a grid point, and how the body's own slices read their buffers.

  The grid has 8 points; point `t` works on batch member `t / 4` and on the query rows `(t % 4)·512 …`. The input,
  mask and weight windows hand the body the whole of their batch member's (or the only) array slice; the output window's
  block is the batch member's 512 query rows. The body reads its 512 query rows out of the input block at row offset
  `(t % 4)·512`, and head `h`'s keys and values out of the caches at column offset `64·h`.
-/
import proofs.«111237_j47356309406164_2_alg».proof.Proof.Gen.KernelIdeal.Frame
import proofs.«111237_j47356309406164_2_alg».proof.Proof.BodyDef
import proofs.«111237_j47356309406164_2_alg».proof.Proof.Spec
import Idealize.ShloMosaic.Lib.ValueIdx
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ)

/-- The printed index maps and the body's row offset, decided over the 8 grid points. -/
theorem idx_facts : ∀ t : Fin cfg0.N,
    (win0_0.index t (0 : Fin 3) = t.val / 4 ∧ win0_0.index t (1 : Fin 3) = 0 ∧ win0_0.index t (2 : Fin 3) = 0)
    ∧ (win0_1.index t (0 : Fin 2) = 0 ∧ win0_1.index t (1 : Fin 2) = 0) ∧ (win0_2.index t (0 : Fin 2) = 0 ∧ win0_2.index t (1 : Fin 2) = 0) ∧ (win0_3.index t (0 : Fin 2) = 0 ∧ win0_3.index t (1 : Fin 2) = 0) ∧ (win0_4.index t (0 : Fin 2) = 0 ∧ win0_4.index t (1 : Fin 2) = 0)
    ∧ (win0_5.index t (0 : Fin 4) = t.val / 4 ∧ win0_5.index t (1 : Fin 4) = 0 ∧ win0_5.index t (2 : Fin 4) = 0 ∧ win0_5.index t (3 : Fin 4) = 0)
    ∧ (win0_6.index t (0 : Fin 3) = t.val / 4 ∧ win0_6.index t (1 : Fin 3) = t.val % 4 ∧ win0_6.index t (2 : Fin 3) = 0)
    ∧ (k0_off1 (grid0.coords t) (0 : Fin 3) = 0 ∧ k0_off1 (grid0.coords t) (1 : Fin 3) = t.val % 4 * 512 ∧ k0_off1 (grid0.coords t) (2 : Fin 3) = 0) :=
  (by decide +kernel : ∀ t : Fin grid0.N, _)

theorem N8 : cfg0.N = 8 := N_0

/-- The batch member a point works on. -/
def bOf (t : Fin cfg0.N) : Fin 2 := ⟨t.val / 4, by have := t.isLt; have := N8; omega⟩

/-- The array row of the point's `r`-th query row. -/
def qOf (t : Fin cfg0.N) (r : Fin 512) : Fin 2048 := ⟨t.val % 4 * 512 + r.val, by have := r.isLt; omega⟩

/-- The input block at a point is the batch member's slice of the input array. -/
theorem iblk0_apply (c : Dev nD) (t : Fin cfg0.N) (s : Fin 2048) (d : Fin 1024) :
    (iblk m c 0 t : Vec F S1x2048x1024 .f32) (ix3 (0 : Fin 1) s d) = V m c main_arg0 (ix3 (bOf t) s d) := by
  obtain ⟨⟨e0, e1, e2⟩, -⟩ := idx_facts t
  show V m c main_arg0 (((cfg0.win 0).blk t).view.emb (ix3 (0 : Fin 1) s d)) = _
  refine congrArg (V m c main_arg0) (funext fun a => Fin.ext ?_)
  match a with
  | ⟨0, _⟩ => show win0_0.index t (0 : Fin 3) * 1 + 1 * 0 = t.val / 4; omega
  | ⟨1, _⟩ => show win0_0.index t (1 : Fin 3) * 2048 + 1 * s.val = s.val; omega
  | ⟨2, _⟩ => show win0_0.index t (2 : Fin 3) * 1024 + 1 * d.val = d.val; omega

/-- The weight blocks are the weight arrays. -/
theorem iblk1_apply (c : Dev nD) (t : Fin cfg0.N) (e d : Fin 1024) :
    (iblk m c 1 t : Vec F S1024x1024 .f32) (ix2 e d) = V m c main_arg2 (ix2 e d) := by
  obtain ⟨-, ⟨e0, e1⟩, -⟩ := idx_facts t
  show V m c main_arg2 (((cfg0.win 1).blk t).view.emb (ix2 e d)) = _
  refine congrArg (V m c main_arg2) (funext fun a => Fin.ext ?_)
  match a with
  | ⟨0, _⟩ => show win0_1.index t (0 : Fin 2) * 1024 + 1 * e.val = e.val; omega
  | ⟨1, _⟩ => show win0_1.index t (1 : Fin 2) * 1024 + 1 * d.val = d.val; omega

theorem iblk2_apply (c : Dev nD) (t : Fin cfg0.N) (e d : Fin 1024) :
    (iblk m c 2 t : Vec F S1024x1024 .f32) (ix2 e d) = V m c main_arg3 (ix2 e d) := by
  obtain ⟨-, -, ⟨e0, e1⟩, -⟩ := idx_facts t
  show V m c main_arg3 (((cfg0.win 2).blk t).view.emb (ix2 e d)) = _
  refine congrArg (V m c main_arg3) (funext fun a => Fin.ext ?_)
  match a with
  | ⟨0, _⟩ => show win0_2.index t (0 : Fin 2) * 1024 + 1 * e.val = e.val; omega
  | ⟨1, _⟩ => show win0_2.index t (1 : Fin 2) * 1024 + 1 * d.val = d.val; omega

theorem iblk3_apply (c : Dev nD) (t : Fin cfg0.N) (e d : Fin 1024) :
    (iblk m c 3 t : Vec F S1024x1024 .f32) (ix2 e d) = V m c main_arg4 (ix2 e d) := by
  obtain ⟨-, -, -, ⟨e0, e1⟩, -⟩ := idx_facts t
  show V m c main_arg4 (((cfg0.win 3).blk t).view.emb (ix2 e d)) = _
  refine congrArg (V m c main_arg4) (funext fun a => Fin.ext ?_)
  match a with
  | ⟨0, _⟩ => show win0_3.index t (0 : Fin 2) * 1024 + 1 * e.val = e.val; omega
  | ⟨1, _⟩ => show win0_3.index t (1 : Fin 2) * 1024 + 1 * d.val = d.val; omega

theorem iblk4_apply (c : Dev nD) (t : Fin cfg0.N) (e d : Fin 1024) :
    (iblk m c 4 t : Vec F S1024x1024 .f32) (ix2 e d) = V m c main_arg5 (ix2 e d) := by
  obtain ⟨-, -, -, -, ⟨e0, e1⟩, -⟩ := idx_facts t
  show V m c main_arg5 (((cfg0.win 4).blk t).view.emb (ix2 e d)) = _
  refine congrArg (V m c main_arg5) (funext fun a => Fin.ext ?_)
  match a with
  | ⟨0, _⟩ => show win0_4.index t (0 : Fin 2) * 1024 + 1 * e.val = e.val; omega
  | ⟨1, _⟩ => show win0_4.index t (1 : Fin 2) * 1024 + 1 * d.val = d.val; omega

/-- The mask block at a point is the batch member's mask row. -/
theorem iblk5_apply (c : Dev nD) (t : Fin cfg0.N) (k : Fin 2048) :
    (iblk m c 5 t : Vec F S1x1x1x2048 .f32) (ix4 (0 : Fin 1) (0 : Fin 1) (0 : Fin 1) k) = V m c main_arg1 (ix4 (bOf t) (0 : Fin 1) (0 : Fin 1) k) := by
  obtain ⟨-, -, -, -, -, ⟨e0, e1, e2, e3⟩, -⟩ := idx_facts t
  show V m c main_arg1 (((cfg0.win 5).blk t).view.emb (ix4 (0 : Fin 1) (0 : Fin 1) (0 : Fin 1) k)) = _
  refine congrArg (V m c main_arg1) (funext fun a => Fin.ext ?_)
  match a with
  | ⟨0, _⟩ => show win0_5.index t (0 : Fin 4) * 1 + 1 * 0 = t.val / 4; omega
  | ⟨1, _⟩ => show win0_5.index t (1 : Fin 4) * 1 + 1 * 0 = 0; omega
  | ⟨2, _⟩ => show win0_5.index t (2 : Fin 4) * 1 + 1 * 0 = 0; omega
  | ⟨3, _⟩ => show win0_5.index t (3 : Fin 4) * 2048 + 1 * k.val = k.val; omega

/-- The body's query rows at a point: rows `(t % 4)·512 …` of the input block. -/
theorem qrows_apply (t : Fin cfg0.N) (x0 : Vec F S1x2048x1024 .f32) (r : Fin 512) (d : Fin 1024) :
    Body.qrows (grid0.coords t) x0 (ix3 (0 : Fin 1) r d) = x0 (ix3 (0 : Fin 1) (qOf t r) d) := by
  obtain ⟨-, -, -, -, -, -, -, ⟨e0, e1, e2⟩⟩ := idx_facts t
  show x0 ((Rect.unit (s := S1x2048x1024) (k0_off1 (grid0.coords t)) S1x512x1024.size (k0_off1_inb (grid0.coords t))).emb (ix3 (0 : Fin 1) r d)) = _
  refine congrArg x0 (funext fun a => Fin.ext ?_)
  match a with
  | ⟨0, _⟩ => show k0_off1 (grid0.coords t) (0 : Fin 3) + 1 * 0 = 0; omega
  | ⟨1, _⟩ => show k0_off1 (grid0.coords t) (1 : Fin 3) + 1 * r.val = t.val % 4 * 512 + r.val; omega
  | ⟨2, _⟩ => show k0_off1 (grid0.coords t) (2 : Fin 3) + 1 * d.val = d.val; omega

/-- Head `h`'s slice of a cached array reads the array at column `h·64 + d`. -/
theorem slice64_apply (X : Vec F S2048x1024 .bf16) (h : Fin 16) (k : Fin 2048) (d : Fin 64) :
    Body.slice64 X h (ix2 k d) = X (ix2 k (Cert.Attn.col h d)) := by
  have key : ∀ (o : ℕ) (inb : ∀ a, (![0, o] : Fin 2 → ℕ) a + S2048x64.size a ≤ S2048x1024.size a) (ho : o = h.val * 64),
      View.ld X (Rect.unit (s := S2048x1024) ![0, o] S2048x64.size inb) (ix2 k d) = X (ix2 k (Cert.Attn.col h d)) := by
    intro o inb ho
    show X ((Rect.unit (s := S2048x1024) ![0, o] S2048x64.size inb).emb (ix2 k d)) = _
    refine congrArg X (funext fun a => Fin.ext ?_)
    match a with
    | ⟨0, _⟩ => show 0 + 1 * k.val = k.val; omega
    | ⟨1, _⟩ => show o + 1 * d.val = h.val * 64 + d.val; omega
  match h with
  | ⟨0, _⟩ => exact key 0 _ rfl
  | ⟨1, _⟩ => exact key 64 _ rfl
  | ⟨2, _⟩ => exact key 128 _ rfl
  | ⟨3, _⟩ => exact key 192 _ rfl
  | ⟨4, _⟩ => exact key 256 _ rfl
  | ⟨5, _⟩ => exact key 320 _ rfl
  | ⟨6, _⟩ => exact key 384 _ rfl
  | ⟨7, _⟩ => exact key 448 _ rfl
  | ⟨8, _⟩ => exact key 512 _ rfl
  | ⟨9, _⟩ => exact key 576 _ rfl
  | ⟨10, _⟩ => exact key 640 _ rfl
  | ⟨11, _⟩ => exact key 704 _ rfl
  | ⟨12, _⟩ => exact key 768 _ rfl
  | ⟨13, _⟩ => exact key 832 _ rfl
  | ⟨14, _⟩ => exact key 896 _ rfl
  | ⟨15, _⟩ => exact key 960 _ rfl
  | ⟨n + 16, hn⟩ => exact absurd hn (by omega)

/-- Where the output block's entry `(0, r, e)` sits in the result array. -/
theorem blk6_emb (t : Fin cfg0.N) (r : Fin 512) (e : Fin 1024) :
    ((cfg0.win 6).blk t).view.emb (ix3 (0 : Fin 1) r e) = ix3 (bOf t) (qOf t r) e := by
  obtain ⟨-, -, -, -, -, -, ⟨e0, e1, e2⟩, -⟩ := idx_facts t
  refine funext fun a => Fin.ext ?_
  match a with
  | ⟨0, _⟩ => show win0_6.index t (0 : Fin 3) * 1 + 1 * 0 = t.val / 4; omega
  | ⟨1, _⟩ => show win0_6.index t (1 : Fin 3) * 512 + 1 * r.val = t.val % 4 * 512 + r.val; omega
  | ⟨2, _⟩ => show win0_6.index t (2 : Fin 3) * 1024 + 1 * e.val = e.val; omega

/-- An index of the result array is in point `t`'s block iff each coordinate is in the block's range on its axis. -/
theorem mem_blk6 (t : Fin cfg0.N) (i : S2x2048x1024.Idx) :
    i ∈ ((cfg0.win 6).blk t).view.set ↔ ∀ a : Fin 3, win0_6.index t a * S1x512x1024.size a ≤ (i a).val ∧ (i a).val < win0_6.index t a * S1x512x1024.size a + S1x512x1024.size a := by
  show i ∈ ((View.whole main_v0).slice (win0_6.rect t)).set ↔ _
  rw [View.set_slice_whole, Rect.mem_set_unit]
  exact Iff.rfl

/-- Every index of the result array lies in the block of the point of its batch member and query tile. -/
theorem cover6 (i : S2x2048x1024.Idx) : ∃ t : Fin cfg0.N, (cfg0.win 6).flush t = true ∧ i ∈ ((cfg0.win 6).blk t).view.set := by
  have hi0 : (i 0).val < 2 := (i 0).isLt
  have hi1 : (i 1).val < 2048 := (i 1).isLt
  have hi2 : (i 2).val < 1024 := (i 2).isLt
  have hN := N8
  let t : Fin cfg0.N := ⟨(i 0).val * 4 + (i 1).val / 512, by omega⟩
  have tv : t.val = (i 0).val * 4 + (i 1).val / 512 := rfl
  obtain ⟨-, -, -, -, -, -, ⟨e0, e1, e2⟩, -⟩ := idx_facts t
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 1024 ≤ (i 2).val ∧ (i 2).val < win0_6.index t (2 : Fin 3) * 1024 + 1024; omega

end Cert.KernelIdeal.Blocks

end
-- ==== Proof.LibWholeStore.lean ====
/-
  A buffer written whole by ONE store and then read through any rectangle: the load reads the stored value through the
  rectangle, whatever the buffer held before. (A cache filled at one step of a kernel body and read back in slices later
  in the same body.)
-/
import Idealize.ShloMosaic.Lib.Pipeline.Value
import Idealize.ShloMosaic.Lib.Pipeline.FrameBody

noncomputable section

namespace Cert.LibWholeStore

open Idealize.ShloMosaic

/-- A load through any rectangle `B`, after one store through the whole-shape rectangle at zero offsets (however the
    zeros are spelt), reads the stored value `w` through `B`. -/
theorem readCov_whole_piece {sig : RefSig} {κ : Kind} {sp : Space} {S : Shape} {e : EltTy} {Val : EltTy → Type} [∀ e, Nonempty (Val e)]
    (v : View sig κ sp S e) {off : Fin S.rank → Nat} (h : off = fun _ => 0)
    (inb : ∀ a, off a + S.size a ≤ S.size a) (w : S.Idx → Val e) (B : Rect S) :
    v.readCov [(⟨Rect.unit off S.size inb, w⟩ : View.Piece Val S e)] B.toLoadRect = View.ld w B := by
  subst h
  rw [View.readCov_eq_canon_ld _ _ _ (fun y => ⟨_, List.mem_singleton_self _, by
    show y ∈ (Rect.whole S).set; rw [Rect.set_whole]; exact Finset.mem_univ y⟩), View.canon_unit_zero rfl]

end Cert.LibWholeStore

end
-- ==== Proof.Pieces.lean ====
/-
  What one run of the kernel body leaves behind, as values: the stored output block and the two caches, each as a pure
  function of the blocks the body was handed. At the first point of a batch member the body first fills the key and
  value caches from the whole input block and then reads its slices back; at the other points it reads the caches as
  the point before left them. Either way the stored block is one function (`Body.bodyVal`) of the query rows, the
  weights, the mask row and the caches' 64-column slices.
-/
import proofs.«111237_j47356309406164_2_alg».proof.Proof.Gen.KernelIdeal.Frame
import proofs.«111237_j47356309406164_2_alg».proof.Proof.BodyDef
import proofs.«111237_j47356309406164_2_alg».proof.Proof.LibWholeStore

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- At a point that is not the first of its batch member, the stored block is the body's function of the query rows,
    the query and output weights, the mask row, and the 64-column slices of the cached keys and values. -/
theorem out_B (c : Dev nD) (i : grid0.Coords) (arg2 : Memref sig .tc .vmem S1x2048x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1x1x2048 .f32) (harg7 : arg7.IsWhole) (arg8 : Memref sig .tc .vmem S1x512x1024 .f32) (harg8 : arg8.IsWhole) (arg9 : Memref sig .tc .vmem S2048x1024 .bf16) (harg9 : arg9.IsWhole) (arg10 : Memref sig .tc .vmem S2048x1024 .bf16) (harg10 : arg10.IsWhole) (hc0 : ¬cond0_0 i) (x0 : Vec F S1x2048x1024 .f32) (x1 : Vec F S1024x1024 .f32) (x2 : Vec F S1024x1024 .f32) (x3 : Vec F S1024x1024 .f32) (x4 : Vec F S1024x1024 .f32) (x5 : Vec F S1x1x1x2048 .f32) (xs0 xs1 : Vec F S2048x1024 .bf16) :
    out0_B_6 c i arg2 harg2 arg3 harg3 arg4 harg4 arg5 harg5 arg6 harg6 arg7 harg7 arg8 harg8 arg9 harg9 arg10 harg10 hc0 x0 x1 x2 x3 x4 x5 xs0 xs1
      = Body.bodyVal (Body.qrows i x0) x1 x5 x4 (Body.slice64 xs0) (Body.slice64 xs1) := by
  unfold out0_B_6
  rw [View.read_writes_eq_canon _ _ _ (cover0_B_6 c i arg2 harg2 arg3 harg3 arg4 harg4 arg5 harg5 arg6 harg6 arg7 harg7 arg8 harg8 arg9 harg9 arg10 harg10 hc0 x0 x1 x2 x3 x4 x5 xs0 xs1)]
  unfold kernelRun0_B
  dsimp only
  sl_unfold_run_names
  rw [View.canon_unit_zero hz3]
  simp only [View.readAt_eq_ld, harg2.read_unread, harg3.read_unread, harg6.read_unread, harg7.read_unread, harg9.read_unread,
    harg10.read_unread, View.ld_unit_zero (S := S1024x1024) hz2, View.ld_unit_zero (S := S1x1x1x2048) hz4]
  rfl

/-- At the first point of a batch member the keys' cache is filled with the key projection of the whole input block. -/
theorem sout_A_0 (c : Dev nD) (i : grid0.Coords) (arg2 : Memref sig .tc .vmem S1x2048x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1x1x2048 .f32) (harg7 : arg7.IsWhole) (arg8 : Memref sig .tc .vmem S1x512x1024 .f32) (harg8 : arg8.IsWhole) (arg9 : Memref sig .tc .vmem S2048x1024 .bf16) (harg9 : arg9.IsWhole) (arg10 : Memref sig .tc .vmem S2048x1024 .bf16) (harg10 : arg10.IsWhole) (hc0 : cond0_0 i) (x0 : Vec F S1x2048x1024 .f32) (x1 : Vec F S1024x1024 .f32) (x2 : Vec F S1024x1024 .f32) (x3 : Vec F S1024x1024 .f32) (x4 : Vec F S1024x1024 .f32) (x5 : Vec F S1x1x1x2048 .f32) :
    sout0_A_0 c i arg2 harg2 arg3 harg3 arg4 harg4 arg5 harg5 arg6 harg6 arg7 harg7 arg8 harg8 arg9 harg9 arg10 harg10 hc0 x0 x1 x2 x3 x4 x5 = k0_pay3 x0 x2 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 x0 x1 x2 x3 x4 x5)]
  unfold kernelRun0_A
  dsimp only
  sl_unfold_run_names
  rw [View.canon_unit_zero hz2]
  simp only [View.readAt_eq_ld, harg2.read_unread, harg4.read_unread, View.ld_unit_zero (S := S1024x1024) hz2,
    View.ld_unit_zero (S := S1x2048x1024) hz3]

/-- … and the values' cache with the value projection. -/
theorem sout_A_1 (c : Dev nD) (i : grid0.Coords) (arg2 : Memref sig .tc .vmem S1x2048x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1x1x2048 .f32) (harg7 : arg7.IsWhole) (arg8 : Memref sig .tc .vmem S1x512x1024 .f32) (harg8 : arg8.IsWhole) (arg9 : Memref sig .tc .vmem S2048x1024 .bf16) (harg9 : arg9.IsWhole) (arg10 : Memref sig .tc .vmem S2048x1024 .bf16) (harg10 : arg10.IsWhole) (hc0 : cond0_0 i) (x0 : Vec F S1x2048x1024 .f32) (x1 : Vec F S1024x1024 .f32) (x2 : Vec F S1024x1024 .f32) (x3 : Vec F S1024x1024 .f32) (x4 : Vec F S1024x1024 .f32) (x5 : Vec F S1x1x1x2048 .f32) :
    sout0_A_1 c i arg2 harg2 arg3 harg3 arg4 harg4 arg5 harg5 arg6 harg6 arg7 harg7 arg8 harg8 arg9 harg9 arg10 harg10 hc0 x0 x1 x2 x3 x4 x5 = k0_pay4 x0 x3 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 x0 x1 x2 x3 x4 x5)]
  unfold kernelRun0_A
  dsimp only
  sl_unfold_run_names
  rw [View.canon_unit_zero hz2]
  simp only [View.readAt_eq_ld, harg2.read_unread, harg5.read_unread, View.ld_unit_zero (S := S1024x1024) hz2,
    View.ld_unit_zero (S := S1x2048x1024) hz3]

/-- At the first point of a batch member the stored block is the same function, of the caches just filled. -/
theorem out_A (c : Dev nD) (i : grid0.Coords) (arg2 : Memref sig .tc .vmem S1x2048x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1x1x2048 .f32) (harg7 : arg7.IsWhole) (arg8 : Memref sig .tc .vmem S1x512x1024 .f32) (harg8 : arg8.IsWhole) (arg9 : Memref sig .tc .vmem S2048x1024 .bf16) (harg9 : arg9.IsWhole) (arg10 : Memref sig .tc .vmem S2048x1024 .bf16) (harg10 : arg10.IsWhole) (hc0 : cond0_0 i) (x0 : Vec F S1x2048x1024 .f32) (x1 : Vec F S1024x1024 .f32) (x2 : Vec F S1024x1024 .f32) (x3 : Vec F S1024x1024 .f32) (x4 : Vec F S1024x1024 .f32) (x5 : Vec F S1x1x1x2048 .f32) :
    out0_A_6 c i arg2 harg2 arg3 harg3 arg4 harg4 arg5 harg5 arg6 harg6 arg7 harg7 arg8 harg8 arg9 harg9 arg10 harg10 hc0 x0 x1 x2 x3 x4 x5
      = Body.bodyVal (Body.qrows i x0) x1 x5 x4 (Body.slice64 (k0_pay3 x0 x2)) (Body.slice64 (k0_pay4 x0 x3)) := by
  unfold out0_A_6
  rw [View.read_writes_eq_canon _ _ _ (cover0_A_6 c i arg2 harg2 arg3 harg3 arg4 harg4 arg5 harg5 arg6 harg6 arg7 harg7 arg8 harg8 arg9 harg9 arg10 harg10 hc0 x0 x1 x2 x3 x4 x5)]
  unfold kernelRun0_A
  dsimp only
  sl_unfold_run_names
  rw [View.canon_unit_zero hz3]
  simp only [Cert.LibWholeStore.readCov_whole_piece (S := S2048x1024) (Val := Elt F) _ hz2, View.readAt_eq_ld, harg2.read_unread, harg3.read_unread, harg4.read_unread, harg5.read_unread,
    harg6.read_unread, harg7.read_unread, View.ld_unit_zero (S := S1024x1024) hz2, View.ld_unit_zero (S := S1x1x1x2048) hz4,
    View.ld_unit_zero (S := S1x2048x1024) hz3]
  rfl

end Cert.KernelIdeal.Pieces

end
-- ==== Proof.LibKeepdims.lean ====
/-
  Column ("keepdims") layout forms, one-axis reductions of a matrix and the one-hot mask, read at an index.

  A reduction that keeps its axis as a unit axis leaves a column `[a, 1]`; the next operation broadcasts the column along
  the rows' entries. Lib/ValueLayout.lean has the leading-unit-axis casts and the row broadcast `[1, b] → [a, b]`; here are
  the column cast `[a] → [a, 1]` and the column broadcast `[a, 1] → [a, b]`, in the same style.

  At the ideal values a `vector.multi_reduction` of a matrix over one of its two axes is the sum (or the fold of `max`)
  over that axis's coordinates with the other coordinate fixed: PureOps/Ideal/Laws.lean's one-axis readings with the
  inserted index written by coordinates.

  The one-hot mask `(iota along d == w)` converted to a float is `1` where the coordinate's word is `w` and `0` elsewhere; a
  sum of products with it keeps the one selected term, whatever the other factor is (on the extended reals `x * 0 = 0` and
  `x * 1 = x` for every `x`, infinite or not).
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibKeepdims

open Idealize.ShloMosaic Idealize.ShloMosaic.ValueIdx

/-! ## The column cast and the column broadcast -/

section Layout
variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A matrix reduced over one axis, at the ideal values -/

section Reduce
variable {φ : FTy}

/-- The sum over the entries of each row: `[a, b]` reduced over axis 1, read at row `i`. -/
theorem multiReduction_add_axis1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

/-- The sum over the rows of each column: `[a, b]` reduced over axis 0, read at column `k`. -/
theorem multiReduction_add_axis0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (k : Fin b) :
    multiReduction .add [0] ⟨1, ![b]⟩ src acc h hφ hacc (ix1 k) = ∑ i : Fin a, src (ix2 i k) :=
  (Ideal.multiReduction_add_single src acc h hφ hacc (ix1 k)).trans
    (Finset.sum_congr rfl fun i _ => congrArg src (funext fun c => Fin.ext (by
      match c with
      | ⟨0, _⟩ => rfl
      | ⟨1, _⟩ => rfl)))

/-- The maximum over the entries of each row, from the accumulator's value: `[a, b]` reduced by `max` over axis 1. -/
theorem multiReduction_maximumf_axis1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg ((Finset.univ : Finset (Fin b)).fold max (Ideal.ofBits φ acc)) (funext fun k => congrArg src (funext fun c => Fin.ext (by
      match c with
      | ⟨0, _⟩ => rfl
      | ⟨1, _⟩ => rfl))))

end Reduce

/-! ## The one-hot mask -/

section Mask

/-- Two naturals below `2 ^ 32` have the same 32-bit word exactly when they are equal. -/
theorem ofNat32_eq_iff {n b : ℕ} (hn : n < 2 ^ 32) (hb : b < 2 ^ 32) : BitVec.ofNat 32 n = BitVec.ofNat 32 b ↔ n = b := by
  constructor
  · intro e
    have := congrArg BitVec.toNat e
    rwa [BitVec.toNat_ofNat, BitVec.toNat_ofNat, Nat.mod_eq_of_lt hn, Nat.mod_eq_of_lt hb] at this
  · intro e; rw [e]

/-- A comparison bit, widened to a word and read as a signed integer at the ideal values, is `1` or `0`. -/
theorem sitofp_extui_cmpi_eq (x y : BitVec 32) (h : 1 < 32) :
    (FloatOps.sitofp (F := Ideal) .f32 ((IntOp.cmpi .eq x y).setWidth 32) : EReal) = if x = y then 1 else 0 := by
  show (((((BitVec.ofBool (x == y)).setWidth 32).toInt : ℝ)) : EReal) = _
  by_cases e : x = y
  · have h1 : ((BitVec.ofBool true).setWidth 32).toInt = 1 := by decide
    rw [if_pos e, beq_iff_eq.2 e, h1, Int.cast_one, EReal.coe_one]
  · have h0 : ((BitVec.ofBool false).setWidth 32).toInt = 0 := by decide
    rw [if_neg e, beq_eq_false_iff_ne.2 e, h0, Int.cast_zero, EReal.coe_zero]

/-- The mask `(iota along d == w)` as a float: `1` where the coordinate's word is `w`, `0` elsewhere. -/
theorem mask_apply (s : Shape) (d : Fin s.rank) (h : s.Iotas .tc 32 [d]) (w : BitVec 32) (hlt : 1 < 32) (i : s.Idx) :
    (sitofp .f32 (extui 32 (cmpi .eq (iota .tc s 32 [d] h) (broadcast s w)) hlt) : FVec Ideal s .f32) i
      = if BitVec.ofNat 32 (i d).val = w then (1 : EReal) else 0 := by
  rw [sitofp_apply, extui_apply]
  show (FloatOps.sitofp (F := Ideal) .f32 ((IntOp.cmpi .eq (iota .tc s 32 [d] h i) w).setWidth 32) : EReal) = _
  rw [iota_single_apply, sitofp_extui_cmpi_eq _ _ hlt]

/-- The same against the word of a natural `b`: the mask picks the coordinate `b`. -/
theorem mask_ofNat_apply (s : Shape) (d : Fin s.rank) (h : s.Iotas .tc 32 [d]) (b : ℕ) (hlt : 1 < 32) (i : s.Idx)
    (hi : (i d).val < 2 ^ 32) (hb : b < 2 ^ 32) :
    (sitofp .f32 (extui 32 (cmpi .eq (iota .tc s 32 [d] h) (broadcast s (BitVec.ofNat 32 b))) hlt) : FVec Ideal s .f32) i
      = if (i d).val = b then (1 : EReal) else 0 := by
  rw [mask_apply]
  by_cases e : (i d).val = b
  · rw [if_pos e, if_pos ((ofNat32_eq_iff hi hb).2 e)]
  · rw [if_neg e, if_neg (fun e' => e ((ofNat32_eq_iff hi hb).1 e'))]

/-- A sum of products with a one-hot factor keeps the selected term. No finiteness is asked: on the extended reals
    `x * 0 = 0` and `x * 1 = x` for every `x`. -/
theorem sum_mul_onehot {n : ℕ} (f : Fin n → EReal) (b : Fin n) :
    ∑ l : Fin n, f l * (if l.val = b.val then (1 : EReal) else 0) = f b := by
  rw [Finset.sum_eq_single b]
  · rw [if_pos rfl, mul_one]
  · intro l _ hl
    rw [if_neg (fun e => hl (Fin.ext e)), mul_zero]
  · intro hb; exact absurd (Finset.mem_univ b) hb

end Mask

end Cert.LibKeepdims

end
-- ==== Proof.Pay.lean ====
/-
  The kernel body's arithmetic read at an index, at the extended reals.

  Each projection payload is a matrix product `x · Wᵀ` into the zero splat: the format changes are the identity on the
  extended reals, a leading unit axis is dropped or added by a shape cast, and the product read at `(r, e)` is the sum over
  the contracted coordinate of the two operands' entries. One attention head's payload is, entry by entry, the score
  `(q · kᵀ) · (1/8) + mask`, the row maximum folded from minus infinity, the exponentials of the differences, their row
  sum, the quotient, and the contraction with the values: the specification's `headVal`.
-/
import proofs.«111237_j47356309406164_2_alg».proof.Proof.Gen.KernelIdeal.Skeleton
import proofs.«111237_j47356309406164_2_alg».proof.Proof.Spec
import proofs.«111237_j47356309406164_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The four contractions read at an index -/

/-! ### The contraction `dot_S512x1024_S1024x1024_S512x1024_1_1_0_0_n_n` -/

theorem lhsA_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhsA_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem rhsA_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhsA_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The product into the zero splat, read at `(r, c)`: the sum over the contracted coordinate `k` of the left operand at
    `(r, k)` times the right operand at `(c, k)`. -/
theorem matmulA_apply {φ₁ φ₂ : FTy} (lhs : FVec Ideal S512x1024 φ₁) (rhs : FVec Ideal S1024x1024 φ₂) (r : Fin 512) (c : Fin 1024) :
    matmul dot_S512x1024_S1024x1024_S512x1024_1_1_0_0_n_n none lhs rhs (constant S512x1024 .f32 0x00000000#32) (ix2 r c)
      = ∑ k : Fin 1024, lhs (ix2 r k) * rhs (ix2 c k) := by
  refine (Ideal.matmul_constant_zero_apply dot_S512x1024_S1024x1024_S512x1024_1_1_0_0_n_n none lhs rhs (ix2 r c)).trans ?_
  rw [← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 r c) ((contrEquiv1 dot_S512x1024_S1024x1024_S512x1024_1_1_0_0_n_n 1024 rfl rfl).symm k) = ix2 r k := funext fun a => Fin.ext (by
    match a with
    | ⟨0, _⟩ => exact lhsA_0 _ _
    | ⟨1, _⟩ => exact (lhsA_1 _ _).trans hk)
  have er : dot_S512x1024_S1024x1024_S512x1024_1_1_0_0_n_n.rhsIdx (ix2 r c) ((contrEquiv1 dot_S512x1024_S1024x1024_S512x1024_1_1_0_0_n_n 1024 rfl rfl).symm k) = ix2 c k := funext fun a => Fin.ext (by
    match a with
    | ⟨0, _⟩ => exact rhsA_0 _ _
    | ⟨1, _⟩ => exact (rhsA_1 _ _).trans hk)
  rw [el, er]

/-! ### The contraction `dot_S2048x1024_S1024x1024_S2048x1024_1_1_0_0_n_n` -/

theorem lhsB_0 (i : S2048x1024.Idx) (q : dot_S2048x1024_S1024x1024_S2048x1024_1_1_0_0_n_n.contr.Idx) :
    (dot_S2048x1024_S1024x1024_S2048x1024_1_1_0_0_n_n.lhsIdx i q 0).val = (i 0).val := by
  unfold DotDims.lhsIdx
  rw [dif_neg (show ¬(0 : Fin S2048x1024.rank) ∈ dot_S2048x1024_S1024x1024_S2048x1024_1_1_0_0_n_n.lhsBatch by decide), dif_pos (show (0 : Fin S2048x1024.rank) ∈ dot_S2048x1024_S1024x1024_S2048x1024_1_1_0_0_n_n.lhsNonContracting by decide)]
  rfl
theorem lhsB_1 (i : S2048x1024.Idx) (q : dot_S2048x1024_S1024x1024_S2048x1024_1_1_0_0_n_n.contr.Idx) :
    (dot_S2048x1024_S1024x1024_S2048x1024_1_1_0_0_n_n.lhsIdx i q 1).val = (q ⟨0, by decide⟩).val :=
  dot_S2048x1024_S1024x1024_S2048x1024_1_1_0_0_n_n.lhsIdx_val_of_single rfl i q
theorem rhsB_0 (i : S2048x1024.Idx) (q : dot_S2048x1024_S1024x1024_S2048x1024_1_1_0_0_n_n.contr.Idx) :
    (dot_S2048x1024_S1024x1024_S2048x1024_1_1_0_0_n_n.rhsIdx i q 0).val = (i 1).val := by
  unfold DotDims.rhsIdx
  rw [dif_neg (show ¬(0 : Fin S1024x1024.rank) ∈ dot_S2048x1024_S1024x1024_S2048x1024_1_1_0_0_n_n.rhsBatch by decide), dif_pos (show (0 : Fin S1024x1024.rank) ∈ dot_S2048x1024_S1024x1024_S2048x1024_1_1_0_0_n_n.rhsNonContracting by decide)]
  rfl
theorem rhsB_1 (i : S2048x1024.Idx) (q : dot_S2048x1024_S1024x1024_S2048x1024_1_1_0_0_n_n.contr.Idx) :
    (dot_S2048x1024_S1024x1024_S2048x1024_1_1_0_0_n_n.rhsIdx i q 1).val = (q ⟨0, by decide⟩).val :=
  dot_S2048x1024_S1024x1024_S2048x1024_1_1_0_0_n_n.rhsIdx_val_of_single rfl i q

/-- The product into the zero splat, read at `(r, c)`: the sum over the contracted coordinate `k` of the left operand at
    `(r, k)` times the right operand at `(c, k)`. -/
theorem matmulB_apply {φ₁ φ₂ : FTy} (lhs : FVec Ideal S2048x1024 φ₁) (rhs : FVec Ideal S1024x1024 φ₂) (r : Fin 2048) (c : Fin 1024) :
    matmul dot_S2048x1024_S1024x1024_S2048x1024_1_1_0_0_n_n none lhs rhs (constant S2048x1024 .f32 0x00000000#32) (ix2 r c)
      = ∑ k : Fin 1024, lhs (ix2 r k) * rhs (ix2 c k) := by
  refine (Ideal.matmul_constant_zero_apply dot_S2048x1024_S1024x1024_S2048x1024_1_1_0_0_n_n none lhs rhs (ix2 r c)).trans ?_
  rw [← Equiv.sum_comp (contrEquiv1 dot_S2048x1024_S1024x1024_S2048x1024_1_1_0_0_n_n 1024 rfl rfl).symm]
  refine Finset.sum_congr rfl fun k _ => ?_
  have hk := contrEquiv1_symm_val dot_S2048x1024_S1024x1024_S2048x1024_1_1_0_0_n_n 1024 rfl rfl k
  have el : dot_S2048x1024_S1024x1024_S2048x1024_1_1_0_0_n_n.lhsIdx (ix2 r c) ((contrEquiv1 dot_S2048x1024_S1024x1024_S2048x1024_1_1_0_0_n_n 1024 rfl rfl).symm k) = ix2 r k := funext fun a => Fin.ext (by
    match a with
    | ⟨0, _⟩ => exact lhsB_0 _ _
    | ⟨1, _⟩ => exact (lhsB_1 _ _).trans hk)
  have er : dot_S2048x1024_S1024x1024_S2048x1024_1_1_0_0_n_n.rhsIdx (ix2 r c) ((contrEquiv1 dot_S2048x1024_S1024x1024_S2048x1024_1_1_0_0_n_n 1024 rfl rfl).symm k) = ix2 c k := funext fun a => Fin.ext (by
    match a with
    | ⟨0, _⟩ => exact rhsB_0 _ _
    | ⟨1, _⟩ => exact (rhsB_1 _ _).trans hk)
  rw [el, er]

/-! ### The contraction `dot_S512x64_S2048x64_S512x2048_1_1_0_0_n_n` -/

theorem lhsC_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem lhsC_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem rhsC_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem rhsC_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- The product into the zero splat, read at `(r, c)`: the sum over the contracted coordinate `k` of the left operand at
    `(r, k)` times the right operand at `(c, k)`. -/
theorem matmulC_apply {φ₁ φ₂ : FTy} (lhs : FVec Ideal S512x64 φ₁) (rhs : FVec Ideal S2048x64 φ₂) (r : Fin 512) (c : Fin 2048) :
    matmul dot_S512x64_S2048x64_S512x2048_1_1_0_0_n_n none lhs rhs (constant S512x2048 .f32 0x00000000#32) (ix2 r c)
      = ∑ k : Fin 64, lhs (ix2 r k) * rhs (ix2 c k) := by
  refine (Ideal.matmul_constant_zero_apply dot_S512x64_S2048x64_S512x2048_1_1_0_0_n_n none lhs rhs (ix2 r c)).trans ?_
  rw [← Equiv.sum_comp (contrEquiv1 dot_S512x64_S2048x64_S512x2048_1_1_0_0_n_n 64 rfl rfl).symm]
  refine Finset.sum_congr rfl fun k _ => ?_
  have hk := contrEquiv1_symm_val dot_S512x64_S2048x64_S512x2048_1_1_0_0_n_n 64 rfl rfl k
  have el : dot_S512x64_S2048x64_S512x2048_1_1_0_0_n_n.lhsIdx (ix2 r c) ((contrEquiv1 dot_S512x64_S2048x64_S512x2048_1_1_0_0_n_n 64 rfl rfl).symm k) = ix2 r k := funext fun a => Fin.ext (by
    match a with
    | ⟨0, _⟩ => exact lhsC_0 _ _
    | ⟨1, _⟩ => exact (lhsC_1 _ _).trans hk)
  have er : dot_S512x64_S2048x64_S512x2048_1_1_0_0_n_n.rhsIdx (ix2 r c) ((contrEquiv1 dot_S512x64_S2048x64_S512x2048_1_1_0_0_n_n 64 rfl rfl).symm k) = ix2 c k := funext fun a => Fin.ext (by
    match a with
    | ⟨0, _⟩ => exact rhsC_0 _ _
    | ⟨1, _⟩ => exact (rhsC_1 _ _).trans hk)
  rw [el, er]

/-! ### The contraction `dot_S512x2048_S2048x64_S512x64_1_0_0_1_n_n` -/

theorem lhsD_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem lhsD_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem rhsD_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl
theorem rhsD_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q

/-- The product into the zero splat, read at `(r, c)`: the sum over the contracted coordinate `k` of the left operand at
    `(r, k)` times the right operand at `(k, c)`. -/
theorem matmulD_apply {φ₁ φ₂ : FTy} (lhs : FVec Ideal S512x2048 φ₁) (rhs : FVec Ideal S2048x64 φ₂) (r : Fin 512) (c : Fin 64) :
    matmul dot_S512x2048_S2048x64_S512x64_1_0_0_1_n_n none lhs rhs (constant S512x64 .f32 0x00000000#32) (ix2 r c)
      = ∑ k : Fin 2048, lhs (ix2 r k) * rhs (ix2 k c) := by
  refine (Ideal.matmul_constant_zero_apply dot_S512x2048_S2048x64_S512x64_1_0_0_1_n_n none lhs rhs (ix2 r c)).trans ?_
  rw [← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 r c) ((contrEquiv1 dot_S512x2048_S2048x64_S512x64_1_0_0_1_n_n 2048 rfl rfl).symm k) = ix2 r k := funext fun a => Fin.ext (by
    match a with
    | ⟨0, _⟩ => exact lhsD_0 _ _
    | ⟨1, _⟩ => exact (lhsD_1 _ _).trans hk)
  have er : dot_S512x2048_S2048x64_S512x64_1_0_0_1_n_n.rhsIdx (ix2 r c) ((contrEquiv1 dot_S512x2048_S2048x64_S512x64_1_0_0_1_n_n 2048 rfl rfl).symm k) = ix2 k c := funext fun a => Fin.ext (by
    match a with
    | ⟨1, _⟩ => exact rhsD_1 _ _
    | ⟨0, _⟩ => exact (rhsD_0 _ _).trans hk)
  rw [el, er]

/-! ## The projections and the mask row -/

/-- The query projection of the 512 rows: `x · Wqᵀ`, entry `(r, e)`. -/
theorem pay5_apply (v6 : Vec Ideal S1x512x1024 .f32) (v9 : Vec Ideal S1024x1024 .f32) (r : Fin 512) (e : Fin 1024) :
    k0_pay5 (F := Ideal) v6 v9 (ix2 r e) = ∑ dd : Fin 1024, v6 (ix3 (0 : Fin 1) r dd) * v9 (ix2 e dd) := by
  unfold k0_pay5
  refine (matmulA_apply _ _ r e).trans ?_
  refine Finset.sum_congr rfl fun dd _ => ?_
  exact congrArg (· * v9 (ix2 e dd)) (shapeCast_1ab_ab_apply v6 _ r dd)

/-- The key projection of the 2048 rows: `x · Wkᵀ`, entry `(s, e)`. -/
theorem pay3_apply (v328 : Vec Ideal S1x2048x1024 .f32) (v331 : Vec Ideal S1024x1024 .f32) (s : Fin 2048) (e : Fin 1024) :
    k0_pay3 (F := Ideal) v328 v331 (ix2 s e) = ∑ dd : Fin 1024, v328 (ix3 (0 : Fin 1) s dd) * v331 (ix2 e dd) := by
  unfold k0_pay3
  refine (congrFun (shapeCast_self _ _) (ix2 s e)).trans ?_
  refine (matmulB_apply _ _ s e).trans ?_
  refine Finset.sum_congr rfl fun dd _ => ?_
  exact congrArg (· * v331 (ix2 e dd)) (shapeCast_1ab_ab_apply v328 _ s dd)

/-- The value projection of the 2048 rows: `x · Wvᵀ`, entry `(s, e)`. -/
theorem pay4_apply (v328 : Vec Ideal S1x2048x1024 .f32) (v333 : Vec Ideal S1024x1024 .f32) (s : Fin 2048) (e : Fin 1024) :
    k0_pay4 (F := Ideal) v328 v333 (ix2 s e) = ∑ dd : Fin 1024, v328 (ix3 (0 : Fin 1) s dd) * v333 (ix2 e dd) := by
  unfold k0_pay4
  refine (congrFun (shapeCast_self _ _) (ix2 s e)).trans ?_
  refine (matmulB_apply _ _ s e).trans ?_
  refine Finset.sum_congr rfl fun dd _ => ?_
  exact congrArg (· * v333 (ix2 e dd)) (shapeCast_1ab_ab_apply v328 _ s dd)

/-- The output projection `ctx · Woᵀ`, stored with a leading unit axis: entry `(0, r, e)`. -/
theorem pay1_apply (v320 : FVec Ideal S512x1024 .f32) (v322 : Vec Ideal S1024x1024 .f32) (r : Fin 512) (e : Fin 1024) :
    k0_pay1 (F := Ideal) v320 v322 (ix3 (0 : Fin 1) r e) = ∑ d' : Fin 1024, v320 (ix2 r d') * v322 (ix2 e d') := by
  unfold k0_pay1
  refine (shapeCast_ab_1ab_apply _ _ (0 : Fin 1) r e).trans ?_
  exact matmulA_apply _ _ r e

/-- The mask row `[1, 1, 1, 2048]` flattened and given a leading unit axis: entry `(0, k)` is the mask's entry `k`. -/
theorem pay6_apply (v13 : Vec Ideal S1x1x1x2048 .f32) (k : Fin 2048) :
    k0_pay6 (F := Ideal) v13 (ix2 (0 : Fin 1) k) = v13 (ix4 (0 : Fin 1) (0 : Fin 1) (0 : Fin 1) k) := by
  unfold k0_pay6
  refine (shapeCast_a_1a_apply _ _ (0 : Fin 1) k).trans ?_
  refine shapeCast_apply v13 _ (ix1 k) (ix4 (0 : Fin 1) (0 : Fin 1) (0 : Fin 1) k) ?_
  rw [Shape.rowMajor_val_four, Shape.rowMajor_val_one]
  show ((0 * 1 + 0) * 1 + 0) * 2048 + k.val = k.val
  omega

/-! ## One attention head -/

/-- The column of row maxima spread along the rows: a matrix reduced by `max` over its second axis from minus infinity,
    kept as a column and broadcast back, reads at `(r, k)` the maximum of row `r`. -/
theorem rowMax_apply (S : FVec Ideal S512x2048 .f32) (hr : S512x2048.Reduces [1] S512) (hφ : FKind.Formats .f32)
    (hmax : (0xFF800000#32 : BitVec FTy.f32.bits) = FKind.maximumf.neutral .f32 hφ)
    (hsc : S512.ShapeCasts S512x1) (hbc : S512x1.Broadcasts S512x2048) (r : Fin 512) (k : Fin 2048) :
    broadcastTo S512x2048 (shapeCast S512x1 (multiReduction .maximumf [1] S512 S 0xFF800000#32 hr hφ hmax) hsc) hbc (ix2 r k)
      = Cert.Attn.rowMax (fun k' => S (ix2 r k')) :=
  (Cert.LibKeepdims.broadcastTo_a1_ab_apply _ hbc r k).trans
    ((Cert.LibKeepdims.shapeCast_a_a1_apply _ hsc r (0 : Fin 1)).trans
      (Cert.LibKeepdims.multiReduction_maximumf_axis1 S _ hr hφ hmax r))

/-- The column of row sums spread along the rows: a matrix summed over its second axis, kept as a column and broadcast
    back, reads at `(r, k)` the sum of row `r`. -/
theorem rowSum_apply (E : FVec Ideal S512x2048 .f32) (hr : S512x2048.Reduces [1] S512) (hφ : FKind.Formats .f32)
    (hadd : (0x00000000#32 : BitVec FTy.f32.bits) = FKind.add.neutral .f32 hφ)
    (hsc : S512.ShapeCasts S512x1) (hbc : S512x1.Broadcasts S512x2048) (r : Fin 512) (k : Fin 2048) :
    broadcastTo S512x2048 (shapeCast S512x1 (multiReduction .add [1] S512 E 0x00000000#32 hr hφ hadd) hsc) hbc (ix2 r k)
      = ∑ k' : Fin 2048, E (ix2 r k') :=
  (Cert.LibKeepdims.broadcastTo_a1_ab_apply _ hbc r k).trans
    ((Cert.LibKeepdims.shapeCast_a_a1_apply _ hsc r (0 : Fin 1)).trans
      (Cert.LibKeepdims.multiReduction_add_axis1 E _ hr hφ hadd r))

/-- The exponentials of a matrix's entries less their row's maximum. -/
def expM (S : FVec Ideal S512x2048 .f32) (hr : S512x2048.Reduces [1] S512) (hφ : FKind.Formats .f32)
    (hmax : (0xFF800000#32 : BitVec FTy.f32.bits) = FKind.maximumf.neutral .f32 hφ)
    (hsc : S512.ShapeCasts S512x1) (hbc : S512x1.Broadcasts S512x2048) : FVec Ideal S512x2048 .f32 :=
  exp (subf S (broadcastTo S512x2048 (shapeCast S512x1 (multiReduction .maximumf [1] S512 S 0xFF800000#32 hr hφ hmax) hsc) hbc))

theorem expM_apply (S : FVec Ideal S512x2048 .f32) (hr : S512x2048.Reduces [1] S512) (hφ : FKind.Formats .f32)
    (hmax : (0xFF800000#32 : BitVec FTy.f32.bits) = FKind.maximumf.neutral .f32 hφ)
    (hsc : S512.ShapeCasts S512x1) (hbc : S512x1.Broadcasts S512x2048) (r : Fin 512) (k : Fin 2048) :
    expM S hr hφ hmax hsc hbc (ix2 r k) = Ideal.exp (S (ix2 r k) - Cert.Attn.rowMax (fun k' => S (ix2 r k'))) :=
  congrArg (fun m => Ideal.exp (S (ix2 r k) - m)) (rowMax_apply S hr hφ hmax hsc hbc r k)

/-- The softmax of each row of a score matrix `S`, then the product with the values: entry `(r, d)` is the sum over the
    keys of row `r`'s softmax weight times the value's entry. -/
theorem head_of_scores (S : FVec Ideal S512x2048 .f32) (vh : Vec Ideal S2048x64 .bf16)
    (hr : S512x2048.Reduces [1] S512) (hφ : FKind.Formats .f32)
    (hmax : (0xFF800000#32 : BitVec FTy.f32.bits) = FKind.maximumf.neutral .f32 hφ)
    (hadd : (0x00000000#32 : BitVec FTy.f32.bits) = FKind.add.neutral .f32 hφ)
    (hsc : S512.ShapeCasts S512x1) (hbc : S512x1.Broadcasts S512x2048) (hlt : FTy.bits .bf16 < FTy.bits .f32)
    (r : Fin 512) (d : Fin 64) :
    matmul (φ₂ := .bf16) dot_S512x2048_S2048x64_S512x64_1_0_0_1_n_n none
        (truncf .bf16 (divf (expM S hr hφ hmax hsc hbc)
          (broadcastTo S512x2048 (shapeCast S512x1 (multiReduction .add [1] S512 (expM S hr hφ hmax hsc hbc) 0x00000000#32 hr hφ hadd) hsc) hbc)) hlt)
        vh (constant S512x64 .f32 0x00000000#32) (ix2 r d)
      = ∑ k : Fin 2048, Cert.Attn.soft (fun k' => S (ix2 r k')) k * vh (ix2 k d) := by
  refine (matmulD_apply (φ₂ := .bf16) _ vh r d).trans ?_
  refine Finset.sum_congr rfl fun k _ => ?_
  refine congrArg (· * vh (ix2 k d)) ?_
  show Ideal.div (expM S hr hφ hmax hsc hbc (ix2 r k))
      (broadcastTo S512x2048 (shapeCast S512x1 (multiReduction .add [1] S512 (expM S hr hφ hmax hsc hbc) 0x00000000#32 hr hφ hadd) hsc) hbc (ix2 r k))
    = Ideal.div (Ideal.exp (S (ix2 r k) - Cert.Attn.rowMax (fun k' => S (ix2 r k'))))
        (∑ k' : Fin 2048, Ideal.exp (S (ix2 r k') - Cert.Attn.rowMax (fun k'' => S (ix2 r k''))))
  rw [rowSum_apply, expM_apply]
  exact congrArg (Ideal.div _) (Finset.sum_congr rfl fun k' _ => expM_apply S hr hφ hmax hsc hbc r k')

/-- The score matrix of one head: `(q · kᵀ) · (1/8)` plus the mask row on every row. -/
def scores (v15 : FVec Ideal S1x2048 .f32) (qh : FVec Ideal S512x64 .bf16) (kh : Vec Ideal S2048x64 .bf16)
    (hb : S1x2048.Broadcasts S512x2048) : FVec Ideal S512x2048 .f32 :=
  addf (mulf (matmul (φ₂ := .bf16) dot_S512x64_S2048x64_S512x2048_1_1_0_0_n_n none qh kh (constant S512x2048 .f32 0x00000000#32))
      (broadcast S512x2048 (Scalar.ofBits (F := Ideal) .f32 0x3E000000#32)))
    (broadcastTo S512x2048 v15 hb)

theorem scores_apply (v15 : FVec Ideal S1x2048 .f32) (qh : FVec Ideal S512x64 .bf16) (kh : Vec Ideal S2048x64 .bf16)
    (hb : S1x2048.Broadcasts S512x2048) (r : Fin 512) (k : Fin 2048) :
    scores v15 qh kh hb (ix2 r k)
      = Cert.Attn.scoreRow (fun d' => qh (ix2 r d')) (fun k' d' => kh (ix2 k' d')) (fun k' => v15 (ix2 (0 : Fin 1) k')) k := by
  show matmul (φ₂ := .bf16) dot_S512x64_S2048x64_S512x2048_1_1_0_0_n_n none qh kh (constant S512x2048 .f32 0x00000000#32) (ix2 r k)
        * Ideal.ofBits .f32 0x3E000000#32 + broadcastTo S512x2048 v15 hb (ix2 r k)
      = (∑ d' : Fin 64, qh (ix2 r d') * kh (ix2 k d')) * Cert.Attn.c8 + v15 (ix2 (0 : Fin 1) k)
  rw [matmulC_apply, broadcastTo_1b_ab_apply]
  rfl

/-- One head's context: entry `(r, d)` is the specification's `headVal` of query row `r`, the keys, the mask row and
    column `d` of the values. -/
theorem pay9_apply (v15 : FVec Ideal S1x2048 .f32) (qh : FVec Ideal S512x64 .bf16) (kh vh : Vec Ideal S2048x64 .bf16) (r : Fin 512) (d : Fin 64) :
    k0_pay9 (F := Ideal) v15 qh kh vh (ix2 r d)
      = Cert.Attn.headVal (fun d' => qh (ix2 r d')) (fun k d' => kh (ix2 k d')) (fun k => v15 (ix2 (0 : Fin 1) k)) (fun k => vh (ix2 k d)) := by
  unfold k0_pay9
  refine (head_of_scores (scores v15 qh kh _) vh _ _ _ _ _ _ _ r d).trans ?_
  have hS : (fun k' => scores v15 qh kh broadcasts_S1x2048_S512x2048 (ix2 r k'))
      = Cert.Attn.scoreRow (fun d' => qh (ix2 r d')) (fun k' d' => kh (ix2 k' d')) (fun k' => v15 (ix2 (0 : Fin 1) k')) :=
    funext fun k' => scores_apply v15 qh kh _ r k'
  rw [hS]
  rfl

end Cert.KernelIdeal.Pay

end
-- ==== Proof.Heads.lean ====
/-
  The sixteen heads of the stored block, each in one normal form.

  The body computes head `h`'s context from the query tile's 64 columns `64·h … 64·h + 63`, the mask row, and the
  head's key and value slices, always by the same sequence of operations; the generated text spells that sequence in
  several ways (whole, with the query slice taken inside, or cut into two or three consecutive pieces). Here every
  spelling is shown to be the one function `k0_pay9` of the mask row, the query slice, the keys and the values. These
  are unfoldings: nothing is computed.
-/
import proofs.«111237_j47356309406164_2_alg».proof.Proof.BodyDef
import proofs.«111237_j47356309406164_2_alg».proof.Proof.Spec
import Idealize.ShloMosaic.Lib.ValueIdx
import Idealize.ShloMosaic.Lib.Pipeline.Value

noncomputable section

namespace Cert.KernelIdeal.Body

open Cert.KernelIdeal Cert.KernelIdeal.Gen Idealize.ShloMosaic Idealize.ShloMosaic.ValueIdx

variable {F : FTy → Type} [FloatOps F]

/-- Head `h`'s 64 columns of the query tile: the slice at column offset `64·h`. -/
def qslice (v12 : FVec F S512x1024 .bf16) : Fin 16 → FVec F S512x64 .bf16
  | ⟨0, _⟩ => extractStridedSlice S512x64 ![0, 0] v12 slices_S512x1024_o0_0_S512x64
  | ⟨1, _⟩ => extractStridedSlice S512x64 ![0, 64] v12 slices_S512x1024_o0_64_S512x64
  | ⟨2, _⟩ => extractStridedSlice S512x64 ![0, 128] v12 slices_S512x1024_o0_128_S512x64
  | ⟨3, _⟩ => extractStridedSlice S512x64 ![0, 192] v12 slices_S512x1024_o0_192_S512x64
  | ⟨4, _⟩ => extractStridedSlice S512x64 ![0, 256] v12 slices_S512x1024_o0_256_S512x64
  | ⟨5, _⟩ => extractStridedSlice S512x64 ![0, 320] v12 slices_S512x1024_o0_320_S512x64
  | ⟨6, _⟩ => extractStridedSlice S512x64 ![0, 384] v12 slices_S512x1024_o0_384_S512x64
  | ⟨7, _⟩ => extractStridedSlice S512x64 ![0, 448] v12 slices_S512x1024_o0_448_S512x64
  | ⟨8, _⟩ => extractStridedSlice S512x64 ![0, 512] v12 slices_S512x1024_o0_512_S512x64
  | ⟨9, _⟩ => extractStridedSlice S512x64 ![0, 576] v12 slices_S512x1024_o0_576_S512x64
  | ⟨10, _⟩ => extractStridedSlice S512x64 ![0, 640] v12 slices_S512x1024_o0_640_S512x64
  | ⟨11, _⟩ => extractStridedSlice S512x64 ![0, 704] v12 slices_S512x1024_o0_704_S512x64
  | ⟨12, _⟩ => extractStridedSlice S512x64 ![0, 768] v12 slices_S512x1024_o0_768_S512x64
  | ⟨13, _⟩ => extractStridedSlice S512x64 ![0, 832] v12 slices_S512x1024_o0_832_S512x64
  | ⟨14, _⟩ => extractStridedSlice S512x64 ![0, 896] v12 slices_S512x1024_o0_896_S512x64
  | ⟨15, _⟩ => extractStridedSlice S512x64 ![0, 960] v12 slices_S512x1024_o0_960_S512x64
  | ⟨n + 16, h⟩ => absurd h (by omega)

/-- Head `h`'s context: one whole head from the mask row, the query slice, the keys and the values. -/
def ctx (v12 : FVec F S512x1024 .bf16) (v15 : FVec F S1x2048 .f32) (kk vv : Fin 16 → Vec F S2048x64 .bf16) (h : Fin 16) :
    FVec F S512x64 .f32 :=
  k0_pay9 v15 (qslice v12 h) (kk h) (vv h)

/-! ## Each head's spelling is the normal form -/

theorem head0 (v6 : Vec F S1x512x1024 .f32) (v9 : Vec F S1024x1024 .f32) (v13 : Vec F S1x1x1x2048 .f32) (a b : Vec F S2048x64 .bf16) :
    k0_pay7 v6 v9 v13 a b = k0_pay9 (k0_pay6 v13) (qslice (k0_pay5 v6 v9) 0) a b := rfl

theorem head1 (v6 : Vec F S1x512x1024 .f32) (v9 : Vec F S1024x1024 .f32) : k0_pay8 v6 v9 = qslice (k0_pay5 v6 v9) 1 := rfl

theorem head2 (v12 : FVec F S512x1024 .bf16) (v15 : FVec F S1x2048 .f32) (a b : Vec F S2048x64 .bf16) :
    k0_pay10 v12 v15 a b = k0_pay9 v15 (qslice v12 2) a b := rfl

theorem head3 (v12 : FVec F S512x1024 .bf16) (v15 : FVec F S1x2048 .f32) (a b : Vec F S2048x64 .bf16) :
    k0_pay12 v15 (k0_pay11 v12) a b = k0_pay9 v15 (qslice v12 3) a b := rfl

theorem head4 (v12 : FVec F S512x1024 .bf16) (v15 : FVec F S1x2048 .f32) (a b : Vec F S2048x64 .bf16) :
    k0_pay13 v12 v15 a b = k0_pay9 v15 (qslice v12 4) a b := rfl

theorem head5 (v12 : FVec F S512x1024 .bf16) (v15 : FVec F S1x2048 .f32) (a b : Vec F S2048x64 .bf16) :
    k0_pay15 v15 b (k0_pay14 v12 a) = k0_pay9 v15 (qslice v12 5) a b := rfl

theorem head6 (v12 : FVec F S512x1024 .bf16) (v15 : FVec F S1x2048 .f32) (a b : Vec F S2048x64 .bf16) :
    k0_pay16 v12 v15 a b = k0_pay9 v15 (qslice v12 6) a b := rfl

theorem head7 (v12 : FVec F S512x1024 .bf16) (v15 : FVec F S1x2048 .f32) (a b : Vec F S2048x64 .bf16) :
    k0_pay19 b (k0_pay17 v12 a) (k0_pay18 v15) = k0_pay9 v15 (qslice v12 7) a b := rfl

theorem head8 (v12 : FVec F S512x1024 .bf16) (v15 : FVec F S1x2048 .f32) (a b : Vec F S2048x64 .bf16) :
    k0_pay20 v12 v15 a b = k0_pay9 v15 (qslice v12 8) a b := rfl

theorem head9 (v12 : FVec F S512x1024 .bf16) (v15 : FVec F S1x2048 .f32) (a b : Vec F S2048x64 .bf16) :
    k0_pay23 b (k0_pay21 v12 v15 a) (k0_pay22 v12 v15 a) = k0_pay9 v15 (qslice v12 9) a b := rfl

theorem head10 (v12 : FVec F S512x1024 .bf16) (v15 : FVec F S1x2048 .f32) (a b : Vec F S2048x64 .bf16) :
    k0_pay24 v12 v15 a b = k0_pay9 v15 (qslice v12 10) a b := rfl

theorem head11 (v12 : FVec F S512x1024 .bf16) (v15 : FVec F S1x2048 .f32) (a b : Vec F S2048x64 .bf16) :
    k0_pay26 b (k0_pay25 v12 v15 a) = k0_pay9 v15 (qslice v12 11) a b := rfl

theorem head12 (v12 : FVec F S512x1024 .bf16) (v15 : FVec F S1x2048 .f32) (a b : Vec F S2048x64 .bf16) :
    k0_pay27 v12 v15 a b = k0_pay9 v15 (qslice v12 12) a b := rfl

/-! ## The last payload: heads 13, 14, 15 and the sixteen contexts side by side -/

/-- The last payload finishes head 13, computes heads 14 and 15 whole, and lays the sixteen contexts side by side. -/
theorem pay29_eq (v12 : FVec F S512x1024 .bf16) (v15 : FVec F S1x2048 .f32) (c0 c1 c2 c3 c4 c5 c6 c7 c8 c9 c10 c11 c12 : FVec F S512x64 .f32)
    (k13 w13 k14 w14 k15 w15 : Vec F S2048x64 .bf16) :
    k0_pay29 v12 v15 c0 c1 c2 c3 c4 c5 c6 c7 c8 c9 c10 c11 c12 w13 (k0_pay28 v12 v15 k13) k14 w14 k15 w15
      = concatenate S512x1024 1
          [⟨S512x64, c0⟩, ⟨S512x64, c1⟩, ⟨S512x64, c2⟩, ⟨S512x64, c3⟩, ⟨S512x64, c4⟩, ⟨S512x64, c5⟩, ⟨S512x64, c6⟩, ⟨S512x64, c7⟩, ⟨S512x64, c8⟩, ⟨S512x64, c9⟩, ⟨S512x64, c10⟩, ⟨S512x64, c11⟩, ⟨S512x64, c12⟩,
           ⟨S512x64, k0_pay9 v15 (qslice v12 13) k13 w13⟩, ⟨S512x64, k0_pay9 v15 (qslice v12 14) k14 w14⟩,
           ⟨S512x64, k0_pay9 v15 (qslice v12 15) k15 w15⟩]
          concatenates_S512x64_S512x64_S512x64_S512x64_S512x64_S512x64_S512x64_S512x64_S512x64_S512x64_S512x64_S512x64_S512x64_S512x64_S512x64_S512x64_S512x1024_d1 := rfl

/-- The stored block is the output projection of the sixteen contexts laid side by side. -/
theorem bodyVal_eq (v6 : Vec F S1x512x1024 .f32) (v9 : Vec F S1024x1024 .f32) (v13 : Vec F S1x1x1x2048 .f32) (v322 : Vec F S1024x1024 .f32)
    (kk vv : Fin 16 → Vec F S2048x64 .bf16) :
    bodyVal v6 v9 v13 v322 kk vv
      = k0_pay1
          (concatenate S512x1024 1
            [⟨S512x64, ctx (k0_pay5 v6 v9) (k0_pay6 v13) kk vv 0⟩,
             ⟨S512x64, ctx (k0_pay5 v6 v9) (k0_pay6 v13) kk vv 1⟩,
             ⟨S512x64, ctx (k0_pay5 v6 v9) (k0_pay6 v13) kk vv 2⟩,
             ⟨S512x64, ctx (k0_pay5 v6 v9) (k0_pay6 v13) kk vv 3⟩,
             ⟨S512x64, ctx (k0_pay5 v6 v9) (k0_pay6 v13) kk vv 4⟩,
             ⟨S512x64, ctx (k0_pay5 v6 v9) (k0_pay6 v13) kk vv 5⟩,
             ⟨S512x64, ctx (k0_pay5 v6 v9) (k0_pay6 v13) kk vv 6⟩,
             ⟨S512x64, ctx (k0_pay5 v6 v9) (k0_pay6 v13) kk vv 7⟩,
             ⟨S512x64, ctx (k0_pay5 v6 v9) (k0_pay6 v13) kk vv 8⟩,
             ⟨S512x64, ctx (k0_pay5 v6 v9) (k0_pay6 v13) kk vv 9⟩,
             ⟨S512x64, ctx (k0_pay5 v6 v9) (k0_pay6 v13) kk vv 10⟩,
             ⟨S512x64, ctx (k0_pay5 v6 v9) (k0_pay6 v13) kk vv 11⟩,
             ⟨S512x64, ctx (k0_pay5 v6 v9) (k0_pay6 v13) kk vv 12⟩,
             ⟨S512x64, ctx (k0_pay5 v6 v9) (k0_pay6 v13) kk vv 13⟩,
             ⟨S512x64, ctx (k0_pay5 v6 v9) (k0_pay6 v13) kk vv 14⟩,
             ⟨S512x64, ctx (k0_pay5 v6 v9) (k0_pay6 v13) kk vv 15⟩]
            concatenates_S512x64_S512x64_S512x64_S512x64_S512x64_S512x64_S512x64_S512x64_S512x64_S512x64_S512x64_S512x64_S512x64_S512x64_S512x64_S512x64_S512x1024_d1)
          v322 := rfl

/-! ## The slice and the concatenation read at an index -/

/-- A 64-column slice of a 1024-column array at column offset `o`, read at `(r, d)`: the array at `(r, o + d)`. -/
theorem slice_col_apply {α : Type} (x : S512x1024.Idx → α) (o : Nat) (hs : S512x1024.Slices ![0, o] S512x64)
    (r : Fin 512) (d : Fin 64) (c : Fin 1024) (hc : c.val = o + d.val) :
    extractStridedSlice S512x64 ![0, o] x hs (ix2 r d) = x (ix2 r c) :=
  extractStridedSlice_apply _ x hs _ _ (fun a => match a with
    | ⟨0, _⟩ => by show r.val = 0 + r.val; omega
    | ⟨1, _⟩ => by show c.val = o + d.val; exact hc)

/-- Head `h`'s query slice at `(r, d)` is the query tile at `(r, 64·h + d)`. -/
theorem qslice_apply (v12 : FVec F S512x1024 .bf16) (h : Fin 16) (r : Fin 512) (d : Fin 64) :
    qslice v12 h (ix2 r d) = v12 (ix2 r (Cert.Attn.col h d)) :=
  match h with
  | ⟨0, _⟩ => slice_col_apply v12 0 slices_S512x1024_o0_0_S512x64 r d _ (by show 0 * 64 + d.val = 0 + d.val; omega)
  | ⟨1, _⟩ => slice_col_apply v12 64 slices_S512x1024_o0_64_S512x64 r d _ (by show 1 * 64 + d.val = 64 + d.val; omega)
  | ⟨2, _⟩ => slice_col_apply v12 128 slices_S512x1024_o0_128_S512x64 r d _ (by show 2 * 64 + d.val = 128 + d.val; omega)
  | ⟨3, _⟩ => slice_col_apply v12 192 slices_S512x1024_o0_192_S512x64 r d _ (by show 3 * 64 + d.val = 192 + d.val; omega)
  | ⟨4, _⟩ => slice_col_apply v12 256 slices_S512x1024_o0_256_S512x64 r d _ (by show 4 * 64 + d.val = 256 + d.val; omega)
  | ⟨5, _⟩ => slice_col_apply v12 320 slices_S512x1024_o0_320_S512x64 r d _ (by show 5 * 64 + d.val = 320 + d.val; omega)
  | ⟨6, _⟩ => slice_col_apply v12 384 slices_S512x1024_o0_384_S512x64 r d _ (by show 6 * 64 + d.val = 384 + d.val; omega)
  | ⟨7, _⟩ => slice_col_apply v12 448 slices_S512x1024_o0_448_S512x64 r d _ (by show 7 * 64 + d.val = 448 + d.val; omega)
  | ⟨8, _⟩ => slice_col_apply v12 512 slices_S512x1024_o0_512_S512x64 r d _ (by show 8 * 64 + d.val = 512 + d.val; omega)
  | ⟨9, _⟩ => slice_col_apply v12 576 slices_S512x1024_o0_576_S512x64 r d _ (by show 9 * 64 + d.val = 576 + d.val; omega)
  | ⟨10, _⟩ => slice_col_apply v12 640 slices_S512x1024_o0_640_S512x64 r d _ (by show 10 * 64 + d.val = 640 + d.val; omega)
  | ⟨11, _⟩ => slice_col_apply v12 704 slices_S512x1024_o0_704_S512x64 r d _ (by show 11 * 64 + d.val = 704 + d.val; omega)
  | ⟨12, _⟩ => slice_col_apply v12 768 slices_S512x1024_o0_768_S512x64 r d _ (by show 12 * 64 + d.val = 768 + d.val; omega)
  | ⟨13, _⟩ => slice_col_apply v12 832 slices_S512x1024_o0_832_S512x64 r d _ (by show 13 * 64 + d.val = 832 + d.val; omega)
  | ⟨14, _⟩ => slice_col_apply v12 896 slices_S512x1024_o0_896_S512x64 r d _ (by show 14 * 64 + d.val = 896 + d.val; omega)
  | ⟨15, _⟩ => slice_col_apply v12 960 slices_S512x1024_o0_960_S512x64 r d _ (by show 15 * 64 + d.val = 960 + d.val; omega)
  | ⟨n + 16, h⟩ => absurd h (by omega)

/-- Sixteen [512, 64] pieces laid side by side along the columns, read at `(r, d')`: piece `d' / 64` at
    `(r, d' % 64)`. -/
theorem concat16_apply {α : Type} (p : Fin 16 → (S512x64.Idx → α)) (r : Fin 512) (d' : Fin 1024) :
    concatenate S512x1024 1
        [⟨S512x64, p 0⟩, ⟨S512x64, p 1⟩, ⟨S512x64, p 2⟩, ⟨S512x64, p 3⟩, ⟨S512x64, p 4⟩, ⟨S512x64, p 5⟩, ⟨S512x64, p 6⟩, ⟨S512x64, p 7⟩, ⟨S512x64, p 8⟩, ⟨S512x64, p 9⟩, ⟨S512x64, p 10⟩, ⟨S512x64, p 11⟩, ⟨S512x64, p 12⟩, ⟨S512x64, p 13⟩, ⟨S512x64, p 14⟩, ⟨S512x64, p 15⟩]
        concatenates_S512x64_S512x64_S512x64_S512x64_S512x64_S512x64_S512x64_S512x64_S512x64_S512x64_S512x64_S512x64_S512x64_S512x64_S512x64_S512x64_S512x1024_d1 (ix2 r d')
      = p (Cert.Attn.hd d') (ix2 r (Cert.Attn.ld d')) :=
  concatenate_ofFn_apply (t := S512x1024) (s₁ := S512x64) 1 p concatenates_S512x64_S512x64_S512x64_S512x64_S512x64_S512x64_S512x64_S512x64_S512x64_S512x64_S512x64_S512x64_S512x64_S512x64_S512x64_S512x64_S512x1024_d1
    rfl 64 rfl (ix2 r d') (Cert.Attn.hd d') rfl (ix2 r (Cert.Attn.ld d')) rfl
    (fun b hb => match b with
      | ⟨0, _⟩ => rfl
      | ⟨1, _⟩ => absurd rfl hb)

end Cert.KernelIdeal.Body

end
-- ==== Proof.BodyApply.lean ====
/-
  The whole stored block at an index.

  The block one grid point stores is the output projection of sixteen contexts laid side by side. Read at row `r`,
  output column `e`, it is the sum over the 1024 context columns `d'` of (head `d' / 64`'s context at place `d' % 64`)
  times the output weight `(e, d')`; and each head's context entry is the softmax of that head's scaled, masked scores —
  the projected query row's 64 columns of the head against the head's keys — applied to one column of the head's values.
-/
import proofs.«111237_j47356309406164_2_alg».proof.Proof.Heads
import proofs.«111237_j47356309406164_2_alg».proof.Proof.Pay

noncomputable section

open scoped BigOperators

namespace Cert.KernelIdeal.Body

open Cert.KernelIdeal Cert.KernelIdeal.Gen Idealize.ShloMosaic Idealize.ShloMosaic.ValueIdx

/-- The stored block at row `r`, output column `e`: the sum over the 1024 context columns `d'` (head `d' / 64`, place
    `d' % 64`) of that head's context entry — the softmax of the scaled, masked scores of the projected query row against
    the head's keys, applied to one column of the head's values — times the output weight `(e, d')`. -/
theorem bodyVal_apply (v6 : Vec Ideal S1x512x1024 .f32) (v9 : Vec Ideal S1024x1024 .f32) (v13 : Vec Ideal S1x1x1x2048 .f32) (v322 : Vec Ideal S1024x1024 .f32)
    (kk vv : Fin 16 → Vec Ideal S2048x64 .bf16) (r : Fin 512) (e : Fin 1024) :
    bodyVal (F := Ideal) v6 v9 v13 v322 kk vv (ix3 (0 : Fin 1) r e)
      = ∑ d' : Fin 1024,
          Cert.Attn.headVal
            (fun d => ∑ dd : Fin 1024, v6 (ix3 (0 : Fin 1) r dd) * v9 (ix2 (Cert.Attn.col (Cert.Attn.hd d') d) dd))
            (fun k d => kk (Cert.Attn.hd d') (ix2 k d))
            (fun k => v13 (ix4 (0 : Fin 1) (0 : Fin 1) (0 : Fin 1) k))
            (fun k => vv (Cert.Attn.hd d') (ix2 k (Cert.Attn.ld d')))
          * v322 (ix2 e d') := by
  -- the block is the output projection of the sixteen contexts laid side by side
  rw [bodyVal_eq]
  refine (Pay.pay1_apply _ v322 r e).trans ?_
  refine Finset.sum_congr rfl fun d' _ => ?_
  refine congrArg (· * v322 (ix2 e d')) ?_
  -- column `d'` of the sixteen contexts is place `d' % 64` of head `d' / 64`'s context
  refine (concat16_apply (ctx (k0_pay5 v6 v9) (k0_pay6 v13) kk vv) r d').trans ?_
  -- that head's context entry, from the head's query slice, the mask row, its keys and its values
  refine (Pay.pay9_apply (k0_pay6 v13) (qslice (k0_pay5 v6 v9) (Cert.Attn.hd d')) (kk (Cert.Attn.hd d')) (vv (Cert.Attn.hd d'))
    r (Cert.Attn.ld d')).trans ?_
  -- the query slice read in the query tile, the query tile as the projection, the mask row as loaded
  have hq : (fun d : Fin 64 => qslice (k0_pay5 (F := Ideal) v6 v9) (Cert.Attn.hd d') (ix2 r d))
      = fun d => ∑ dd : Fin 1024, v6 (ix3 (0 : Fin 1) r dd) * v9 (ix2 (Cert.Attn.col (Cert.Attn.hd d') d) dd) :=
    funext fun d => (qslice_apply _ _ r d).trans (Pay.pay5_apply v6 v9 r _)
  have hm : (fun k : Fin 2048 => k0_pay6 (F := Ideal) v13 (ix2 (0 : Fin 1) k))
      = fun k => v13 (ix4 (0 : Fin 1) (0 : Fin 1) (0 : Fin 1) k) :=
    funext fun k => Pay.pay6_apply v13 k
  rw [hq, hm]

end Cert.KernelIdeal.Body

end
-- ==== Proof.KernelValue.lean ====
/-
  The kernel's result array, entry by entry, is the attention function of the argument arrays.

  The key and value caches are carried from one grid point to the next: after point `t` they hold the key and value
  projections of batch member `t / 4` — filled at the member's first point, untouched at its other three (induction over
  the points). So at every point the stored block is the attention output of the member's 512 query rows, and the
  eight blocks tile the result array.
-/
import proofs.«111237_j47356309406164_2_alg».proof.Proof.Gen.KernelIdeal.Value
import proofs.«111237_j47356309406164_2_alg».proof.Proof.Blocks
import proofs.«111237_j47356309406164_2_alg».proof.Proof.Pieces
import proofs.«111237_j47356309406164_2_alg».proof.Proof.Pay
import proofs.«111237_j47356309406164_2_alg».proof.Proof.BodyApply

set_option maxRecDepth 16384

noncomputable section

open scoped BigOperators

namespace Cert.KernelIdeal.KV

open Cert.KernelIdeal Cert.KernelIdeal.Gen Idealize.ShloMosaic Idealize.ShloMosaic.TcCoe Idealize.ShloMosaic.ValueIdx Idealize.SL.Sem
open Idealize.ShloMosaic.Pipeline (Dat)
open Cert.KernelIdeal.Blocks Cert.KernelIdeal.Pieces

variable (m : (ℓ : Loc nD τ sig) → Buf (Elt Ideal) ℓ) (ρ : Dev nD → PrngReg)

/-- Batch member `b`'s rows of the input array, and its mask row. -/
def xb (c : Dev nD) (b : Fin 2) : Fin 2048 → Fin 1024 → EReal := fun s d => V m c main_arg0 (ix3 b s d)
def mb (c : Dev nD) (b : Fin 2) : Fin 2048 → EReal := fun k => V m c main_arg1 (ix4 b (0 : Fin 1) (0 : Fin 1) k)

/-- What the first point of a batch member leaves in the caches: the member's key and value projections. -/
theorem fill (c : Dev nD) (t : Fin cfg0.N) (s : Fin 2048) (e : Fin 1024) :
    k0_pay3 (F := Ideal) (iblk m c 0 t) (iblk m c 2 t) (ix2 s e) = Cert.Attn.proj (xb m c (bOf t)) (V m c main_arg3) s e
    ∧ k0_pay4 (F := Ideal) (iblk m c 0 t) (iblk m c 3 t) (ix2 s e) = Cert.Attn.proj (xb m c (bOf t)) (V m c main_arg4) s e := by
  constructor
  · rw [Pay.pay3_apply]
    exact Finset.sum_congr rfl fun dd _ => by rw [iblk0_apply, iblk2_apply]; rfl
  · rw [Pay.pay4_apply]
    exact Finset.sum_congr rfl fun dd _ => by rw [iblk0_apply, iblk3_apply]; rfl

/-- THE CACHES after every point hold the key and value projections of the point's batch member. -/
theorem caches (c : Dev nD) : ∀ (n : ℕ) (hn : n < cfg0.N),
    (∀ (s : Fin 2048) (e : Fin 1024), (outsAt0 m c n hn).2.1 (ix2 s e) = Cert.Attn.proj (xb m c (bOf ⟨n, hn⟩)) (V m c main_arg3) s e)
    ∧ (∀ (s : Fin 2048) (e : Fin 1024), (outsAt0 m c n hn).2.2 (ix2 s e) = Cert.Attn.proj (xb m c (bOf ⟨n, hn⟩)) (V m c main_arg4) s e) := by
  intro n
  induction n with
  | zero =>
    intro hn
    rw [outsAt0_A m c ⟨0, hn⟩ (Nat.zero_mod 4)]
    dsimp only
    refine ⟨fun s e => ?_, fun s e => ?_⟩
    · rw [sout_A_0]; exact (fill m c ⟨0, hn⟩ s e).1
    · rw [sout_A_1]; exact (fill m c ⟨0, hn⟩ s e).2
  | succ n ih =>
    intro hn
    by_cases h0 : (n + 1) % 4 = 0
    · rw [outsAt0_A m c ⟨n + 1, hn⟩ h0]
      dsimp only
      refine ⟨fun s e => ?_, fun s e => ?_⟩
      · rw [sout_A_0]; exact (fill m c ⟨n + 1, hn⟩ s e).1
      · rw [sout_A_1]; exact (fill m c ⟨n + 1, hn⟩ s e).2
    · rw [outsAt0_B m c ⟨n + 1, hn⟩ h0]
      dsimp only
      unfold sout0_B_0 sout0_B_1
      have hb : bOf ⟨n + 1, hn⟩ = bOf ⟨n, Nat.lt_of_succ_lt hn⟩ := Fin.ext (by show (n + 1) / 4 = n / 4; omega)
      rw [hb]
      exact ih (Nat.lt_of_succ_lt hn)

/-- THE STORED BLOCK at a point, from caches that hold the member's key and value projections, is the attention output
    of the member's query rows. -/
theorem block_of_caches (c : Dev nD) (t : Fin cfg0.N) (ks vs : Vec Ideal S2048x1024 .bf16)
    (hk : ∀ (s : Fin 2048) (e : Fin 1024), ks (ix2 s e) = Cert.Attn.proj (xb m c (bOf t)) (V m c main_arg3) s e)
    (hv : ∀ (s : Fin 2048) (e : Fin 1024), vs (ix2 s e) = Cert.Attn.proj (xb m c (bOf t)) (V m c main_arg4) s e)
    (r : Fin 512) (e : Fin 1024) :
    Body.bodyVal (F := Ideal) (Body.qrows (grid0.coords t) (iblk m c 0 t)) (iblk m c 1 t) (iblk m c 5 t) (iblk m c 4 t)
        (Body.slice64 ks) (Body.slice64 vs) (ix3 (0 : Fin 1) r e)
      = Cert.Attn.outRow (xb m c (bOf t)) (mb m c (bOf t)) (V m c main_arg2) (V m c main_arg3) (V m c main_arg4) (V m c main_arg5) (qOf t r) e := by
  rw [Body.bodyVal_apply]
  unfold Cert.Attn.outRow Cert.Attn.ctxOf
  refine Finset.sum_congr rfl fun d' _ => ?_
  simp only [qrows_apply, iblk0_apply, iblk1_apply, iblk4_apply, iblk5_apply, slice64_apply, hk, hv, Cert.Attn.col_hd_ld]
  rfl

/-- … so what every point leaves in the output's staging buffer is that. -/
theorem block_at (c : Dev nD) (t : Fin cfg0.N) (r : Fin 512) (e : Fin 1024) :
    ((outsAt0 m c t.val t.isLt).1 : Vec Ideal S1x512x1024 .f32) (ix3 (0 : Fin 1) r e)
      = Cert.Attn.outRow (xb m c (bOf t)) (mb m c (bOf t)) (V m c main_arg2) (V m c main_arg3) (V m c main_arg4) (V m c main_arg5) (qOf t r) e := by
  by_cases h0 : t.val % 4 = 0
  · rw [outsAt0_A m c t h0]
    dsimp only
    rw [out_A]
    exact block_of_caches m c t _ _ (fun s e => (fill m c t s e).1) (fun s e => (fill m c t s e).2) r e
  · rw [outsAt0_B m c t h0]
    dsimp only
    rw [out_B]
    have hlt : t.val - 1 < cfg0.N := Nat.lt_of_le_of_lt (Nat.sub_le _ _) t.isLt
    obtain ⟨hk, hv⟩ := caches m c (t.val - 1) hlt
    have hb : bOf ⟨t.val - 1, hlt⟩ = bOf t := Fin.ext (by show (t.val - 1) / 4 = t.val / 4; omega)
    rw [hb] at hk hv
    exact block_of_caches m c t _ _ hk hv r e

/-- WHAT POINT `t` WRITES BACK is block `t` of the attention function of the argument arrays. -/
theorem flushed_eq (c : Dev nD) (t : Fin cfg0.N) :
    (dats m 0 c).flushed 6 t = ((cfg0.win 6).blk t).view.read (Elt Ideal)
      (Cert.Attn.G (V m c main_arg0) (V m c main_arg1) (V m c main_arg2) (V m c main_arg3) (V m c main_arg4) (V m c main_arg5)) := by
  rw [Cert.KernelIdeal.Value.flushed6]
  refine funext fun (y : S1x512x1024.Idx) => ?_
  obtain ⟨u, r, e, rfl⟩ : ∃ (u : Fin 1) (r : Fin 512) (e : Fin 1024), y = ix3 u r e := ⟨y 0, y 1, y 2, eq_ix3 y⟩
  obtain rfl : u = 0 := Subsingleton.elim _ _
  show ((outsAt0 m c t.val t.isLt).1 : Vec Ideal S1x512x1024 .f32) (ix3 (0 : Fin 1) r e)
    = Cert.Attn.G (V m c main_arg0) (V m c main_arg1) (V m c main_arg2) (V m c main_arg3) (V m c main_arg4) (V m c main_arg5)
        (((cfg0.win 6).blk t).view.emb (ix3 (0 : Fin 1) r e))
  rw [blk6_emb, Cert.Attn.G_ix3]
  exact block_at m c t r e

/-- THE RESULT ARRAY after the run is the attention function of the argument arrays. -/
theorem final (c : Dev nD) : (dats m 0 c).arrAt 6 cfg0.N
    = Cert.Attn.G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (dats m 0 c).arrAt_eq_of_cover 6 _ (fun t _ => flushed_eq m c t) cover6

/-- The kernel's run with its result array named as that function, the arguments unchanged. -/
theorem run : θ_run defs (onTc (τ := τ) (main (F := Ideal))) ⟨m, fun _ => 0, ρ⟩ fun r => ∀ c : Dev nD,
      r.2.mem ((c : Thread nD τ).loc main_v0)
        = Cert.Attn.G (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.KV

end
-- ==== Proof.RefValueA.lean ====
/-
  The reference program's value, index by index, is the attention function of the specification.

  This first part: the two constants (dividing by the square root of 64 is multiplying by 1/8; a sum that
  starts from the word of zero), the absorption of the starting value by a row maximum, and the three linear
  projections read at a head coordinate.
-/
import proofs.«111237_j47356309406164_2_alg».proof.Proof.Gen.ReferenceIdeal.Read
import proofs.«111237_j47356309406164_2_alg».proof.Proof.Spec

noncomputable section

open scoped BigOperators

namespace Cert.RefAttn

open Cert.ReferenceIdeal Cert.ReferenceIdeal.Gen Cert.ReferenceIdeal.Read Cert.Attn
open Idealize.ShloMosaic Idealize.ShloMosaic.ValueIdx

/-! ## Constants -/

/-- The word 0x42800000 denotes the real 64. -/
theorem ofBits_64 : Ideal.ofBits .f32 0x42800000#32 = ((64 : ℝ) : EReal) := by
  simp [Ideal.ofBits, Ideal.ieee, -EReal.coe_mul]; norm_num

/-- The word 0x3E000000 denotes the real 1/8. -/
theorem c8_eq : c8 = (((1 : ℝ) / 8 : ℝ) : EReal) := by
  unfold c8
  simp [Ideal.ofBits, Ideal.ieee, -EReal.coe_mul]; norm_num

/-- Dividing by the square root of the word of 64 is multiplying by the word of 1/8. -/
theorem div_sqrt64 (x : EReal) : Ideal.div x (Ideal.sqrt (Ideal.ofBits .f32 0x42800000#32)) = x * c8 := by
  have h8 : Real.sqrt 64 = 8 := by
    rw [show (64 : ℝ) = 8 ^ 2 by norm_num]
    exact Real.sqrt_sq (by norm_num)
  rw [ofBits_64, Ideal.sqrt_coe, if_neg (by norm_num), h8, Ideal.div_coe (by norm_num), c8_eq]

/-! ## A maximum absorbs the value its fold started from -/

theorem max_fold_max (b : EReal) (f : Fin 2048 → EReal) :
    max b ((Finset.univ : Finset (Fin 2048)).fold max b f) = (Finset.univ : Finset (Fin 2048)).fold max b f :=
  max_eq_right ((Finset.le_fold_max b).2 (Or.inl le_rfl))

/-! ## The projections at a head coordinate

The arrays q, k, v are the product of x with a weight matrix stored [out, in], recast from 1024 columns to 16 heads
of 64 and with the head axis moved in front of the row axis: entry (b, h, s, d) is row s of batch b against
weight row h·64 + d. -/

theorem proj_q (x0 : (⟨S2x2048x1024, .f32⟩ : BufTy).Contents (Elt Ideal)) (x2 : (⟨S1024x1024, .f32⟩ : BufTy).Contents (Elt Ideal))
    (b : Fin 2) (h : Fin 16) (s : Fin 2048) (d : Fin 64) :
    val_main_v2 (F := Ideal) x0 x2 (ix4 b h s d) = proj (fun s d => x0 (ix3 b s d)) x2 s (col h d) := by
  rw [val_main_v2_apply, val_main_v1_apply, val_main_v0_apply]
  unfold proj
  refine Finset.sum_congr rfl fun k _ => ?_
  have el : lidx_main_v0 (idx_main_v1 (idx_main_v2 (ix4 b h s d))) k = ix3 b s k := funext fun a => Fin.ext (by
    have hb := b.isLt; have hh := h.isLt; have hs := s.isLt; have hd := d.isLt
    match a with
    | ⟨0, _⟩ => show (((b.val * 2048 + s.val) * 16 + h.val) * 64 + d.val) / 2097152 = b.val; omega
    | ⟨1, _⟩ => show (((b.val * 2048 + s.val) * 16 + h.val) * 64 + d.val) / 1024 % 2048 = s.val; omega
    | ⟨2, _⟩ => rfl)
  have er : ridx_main_v0 (idx_main_v1 (idx_main_v2 (ix4 b h s d))) k = ix2 (col h d) k := funext fun a => Fin.ext (by
    have hb := b.isLt; have hh := h.isLt; have hs := s.isLt; have hd := d.isLt
    match a with
    | ⟨0, _⟩ => show (((b.val * 2048 + s.val) * 16 + h.val) * 64 + d.val) % 1024 = h.val * 64 + d.val; omega
    | ⟨1, _⟩ => rfl)
  rw [el, er]

theorem proj_k (x0 : (⟨S2x2048x1024, .f32⟩ : BufTy).Contents (Elt Ideal)) (x3 : (⟨S1024x1024, .f32⟩ : BufTy).Contents (Elt Ideal))
    (b : Fin 2) (h : Fin 16) (s : Fin 2048) (d : Fin 64) :
    val_main_v5 (F := Ideal) x0 x3 (ix4 b h s d) = proj (fun s d => x0 (ix3 b s d)) x3 s (col h d) := by
  rw [val_main_v5_apply, val_main_v4_apply, val_main_v3_apply]
  unfold proj
  refine Finset.sum_congr rfl fun k _ => ?_
  have el : lidx_main_v3 (idx_main_v4 (idx_main_v5 (ix4 b h s d))) k = ix3 b s k := funext fun a => Fin.ext (by
    have hb := b.isLt; have hh := h.isLt; have hs := s.isLt; have hd := d.isLt
    match a with
    | ⟨0, _⟩ => show (((b.val * 2048 + s.val) * 16 + h.val) * 64 + d.val) / 2097152 = b.val; omega
    | ⟨1, _⟩ => show (((b.val * 2048 + s.val) * 16 + h.val) * 64 + d.val) / 1024 % 2048 = s.val; omega
    | ⟨2, _⟩ => rfl)
  have er : ridx_main_v3 (idx_main_v4 (idx_main_v5 (ix4 b h s d))) k = ix2 (col h d) k := funext fun a => Fin.ext (by
    have hb := b.isLt; have hh := h.isLt; have hs := s.isLt; have hd := d.isLt
    match a with
    | ⟨0, _⟩ => show (((b.val * 2048 + s.val) * 16 + h.val) * 64 + d.val) % 1024 = h.val * 64 + d.val; omega
    | ⟨1, _⟩ => rfl)
  rw [el, er]

theorem proj_v (x0 : (⟨S2x2048x1024, .f32⟩ : BufTy).Contents (Elt Ideal)) (x4 : (⟨S1024x1024, .f32⟩ : BufTy).Contents (Elt Ideal))
    (b : Fin 2) (h : Fin 16) (s : Fin 2048) (d : Fin 64) :
    val_main_v8 (F := Ideal) x0 x4 (ix4 b h s d) = proj (fun s d => x0 (ix3 b s d)) x4 s (col h d) := by
  rw [val_main_v8_apply, val_main_v7_apply, val_main_v6_apply]
  unfold proj
  refine Finset.sum_congr rfl fun k _ => ?_
  have el : lidx_main_v6 (idx_main_v7 (idx_main_v8 (ix4 b h s d))) k = ix3 b s k := funext fun a => Fin.ext (by
    have hb := b.isLt; have hh := h.isLt; have hs := s.isLt; have hd := d.isLt
    match a with
    | ⟨0, _⟩ => show (((b.val * 2048 + s.val) * 16 + h.val) * 64 + d.val) / 2097152 = b.val; omega
    | ⟨1, _⟩ => show (((b.val * 2048 + s.val) * 16 + h.val) * 64 + d.val) / 1024 % 2048 = s.val; omega
    | ⟨2, _⟩ => rfl)
  have er : ridx_main_v6 (idx_main_v7 (idx_main_v8 (ix4 b h s d))) k = ix2 (col h d) k := funext fun a => Fin.ext (by
    have hb := b.isLt; have hh := h.isLt; have hs := s.isLt; have hd := d.isLt
    match a with
    | ⟨0, _⟩ => show (((b.val * 2048 + s.val) * 16 + h.val) * 64 + d.val) % 1024 = h.val * 64 + d.val; omega
    | ⟨1, _⟩ => rfl)
  rw [el, er]

/-! ## The scores

Entry (b, h, q, k) of the scores: the contraction of the query row with the key row over the head's 64 places,
divided by the square root of 64, plus the mask of key k. -/

theorem scores_eq (x0 : (⟨S2x2048x1024, .f32⟩ : BufTy).Contents (Elt Ideal)) (x1 : (⟨S2x1x1x2048, .f32⟩ : BufTy).Contents (Elt Ideal))
    (x2 x3 : (⟨S1024x1024, .f32⟩ : BufTy).Contents (Elt Ideal)) (b : Fin 2) (h : Fin 16) (q k : Fin 2048) :
    val_main_v14 (F := Ideal) x0 x1 x2 x3 (ix4 b h q k)
      = scoreRow (fun d => proj (fun s d => x0 (ix3 b s d)) x2 q (col h d))
          (fun k d => proj (fun s d => x0 (ix3 b s d)) x3 k (col h d))
          (fun k => x1 (ix4 b (0 : Fin 1) (0 : Fin 1) k)) k := by
  rw [val_main_v14_apply, val_main_v12_apply, val_main_v13_apply, val_main_v11_apply, val_main_v10_apply,
    val_main_cst_apply, val_main_v9_apply]
  unfold scoreRow
  rw [Ideal.addf_def, Ideal.hostDivf_def, Ideal.hostUnary_sqrt_def, Ideal.ofBits_def, div_sqrt64]
  have em : idx_main_v13 (ix4 b h q k) = ix4 b (0 : Fin 1) (0 : Fin 1) k := funext fun a => Fin.ext (by
    match a with
    | ⟨0, _⟩ => rfl
    | ⟨1, _⟩ => rfl
    | ⟨2, _⟩ => rfl
    | ⟨3, _⟩ => rfl)
  rw [em]
  refine congrArg (· * c8 + _) (Finset.sum_congr rfl fun d _ => ?_)
  have el : lidx_main_v9 (ix4 b h q k) d = ix4 b h q d := funext fun a => Fin.ext (by
    match a with
    | ⟨0, _⟩ => rfl
    | ⟨1, _⟩ => rfl
    | ⟨2, _⟩ => rfl
    | ⟨3, _⟩ => rfl)
  have er : ridx_main_v9 (ix4 b h q k) d = ix4 b h k d := funext fun a => Fin.ext (by
    match a with
    | ⟨0, _⟩ => rfl
    | ⟨1, _⟩ => rfl
    | ⟨2, _⟩ => rfl
    | ⟨3, _⟩ => rfl)
  rw [el, er, proj_q, proj_k]

end Cert.RefAttn

end
-- ==== Proof.RefValue.lean ====
/-
  The reference program's value, index by index, is the attention function of the specification.

  This second part: the row maximum (the one reduction read by hand), the softmax weights, one head's context,
  the context row after the heads are laid side by side again, the output projection, and the final equation.
-/
import proofs.«111237_j47356309406164_2_alg».proof.Proof.RefValueA

noncomputable section

open scoped BigOperators

namespace Cert.RefAttn

open Cert.ReferenceIdeal Cert.ReferenceIdeal.Gen Cert.ReferenceIdeal.Read Cert.Attn
open Idealize.ShloMosaic Idealize.ShloMosaic.ValueIdx

/-! ## The row maximum

The reduction with maximum over the key axis, started from the word of minus infinity, is at (b, h, q) the fold of
max over the 2048 scores of that row; taking the maximum with the starting word once more changes nothing. -/

theorem maximumf_fold (b : EReal) (f : Fin 2048 → EReal) :
    FloatOps.maximumf (F := Ideal) (φ := .f32) b
        ((Finset.univ : Finset (Fin 2048)).fold (FloatOps.maximumf (F := Ideal) (φ := .f32)) b f)
      = (Finset.univ : Finset (Fin 2048)).fold max b f := max_fold_max b f

theorem rowmax_eq (x0 : (⟨S2x2048x1024, .f32⟩ : BufTy).Contents (Elt Ideal)) (x1 : (⟨S2x1x1x2048, .f32⟩ : BufTy).Contents (Elt Ideal))
    (x2 x3 : (⟨S1024x1024, .f32⟩ : BufTy).Contents (Elt Ideal)) (b : Fin 2) (h : Fin 16) (q : Fin 2048) :
    val_main_v17 (F := Ideal) x0 x1 x2 x3 (ix3 b h q)
      = rowMax (fun k => val_main_v14 (F := Ideal) x0 x1 x2 x3 (ix4 b h q k)) := by
  have hr : S2x16x2048x2048.Reduces [3] S2x16x2048 := by decide
  rw [val_main_v17_apply, val_main_v16_apply, val_main_cst_1_apply]
  unfold val_main_v15
  generalize val_main_v14 (F := Ideal) x0 x1 x2 x3 = y
  rw [Host.reduce_eq_fold_single (FloatOps.maximumf (F := Ideal) (φ := .f32)) y _ reducesTo_S2x16x2048x2048_S2x16x2048_d3 hr h_S_ (ix3 b h q),
    val_main_cst_0_apply]
  have hl : ∀ k : Fin 2048, hr.lift (ix3 b h q) k = ix4 b h q k := fun k => funext fun a => Fin.ext (by
    match a with
    | ⟨0, _⟩ => rfl
    | ⟨1, _⟩ => rfl
    | ⟨2, _⟩ => rfl
    | ⟨3, _⟩ => rfl)
  have hf : (y ∘ hr.lift (ix3 b h q)) = fun k : Fin 2048 => y (ix4 b h q k) := funext fun k => congrArg y (hl k)
  rw [hf, Ideal.ofBits_def]
  unfold rowMax negInf
  exact maximumf_fold _ _

/-! ## The softmax weights

With s the score row of (b, h, q): the exponentials are exp (s k − max s), their sum starts from the word of zero,
and entry (b, h, q, k) of the weights is the quotient. -/

theorem exp_eq (x0 : (⟨S2x2048x1024, .f32⟩ : BufTy).Contents (Elt Ideal)) (x1 : (⟨S2x1x1x2048, .f32⟩ : BufTy).Contents (Elt Ideal))
    (x2 x3 : (⟨S1024x1024, .f32⟩ : BufTy).Contents (Elt Ideal)) (b : Fin 2) (h : Fin 16) (q k : Fin 2048) :
    val_main_v21 (F := Ideal) x0 x1 x2 x3 (ix4 b h q k)
      = Ideal.exp (val_main_v14 (F := Ideal) x0 x1 x2 x3 (ix4 b h q k)
          - rowMax (fun k => val_main_v14 (F := Ideal) x0 x1 x2 x3 (ix4 b h q k))) := by
  rw [val_main_v21_apply, val_main_v20_apply, val_main_v19_apply, val_main_v18_apply]
  have e : idx_main_v18 (idx_main_v19 (ix4 b h q k)) = ix3 b h q := funext fun a => Fin.ext (by
    match a with
    | ⟨0, _⟩ => rfl
    | ⟨1, _⟩ => rfl
    | ⟨2, _⟩ => rfl)
  rw [e, rowmax_eq, Ideal.hostUnary_exp_def, Ideal.subf_def]

theorem soft_eq (x0 : (⟨S2x2048x1024, .f32⟩ : BufTy).Contents (Elt Ideal)) (x1 : (⟨S2x1x1x2048, .f32⟩ : BufTy).Contents (Elt Ideal))
    (x2 x3 : (⟨S1024x1024, .f32⟩ : BufTy).Contents (Elt Ideal)) (b : Fin 2) (h : Fin 16) (q k : Fin 2048) :
    val_main_v25 (F := Ideal) x0 x1 x2 x3 (ix4 b h q k)
      = soft (fun k => val_main_v14 (F := Ideal) x0 x1 x2 x3 (ix4 b h q k)) k := by
  rw [val_main_v25_apply, val_main_v24_apply, val_main_v23_apply]
  have e : idx_main_v23 (idx_main_v24 (ix4 b h q k)) = ix3 b h q := funext fun a => Fin.ext (by
    match a with
    | ⟨0, _⟩ => rfl
    | ⟨1, _⟩ => rfl
    | ⟨2, _⟩ => rfl)
  rw [e, val_main_v22_apply, val_main_cst_2_apply, Ideal.ofBits_def, Ideal.ofBits_zero_f32, zero_add, Ideal.hostDivf_def]
  unfold soft
  refine congrArg₂ Ideal.div (exp_eq x0 x1 x2 x3 b h q k) (Finset.sum_congr rfl fun k' _ => ?_)
  have es : idx_main_v22 (ix3 b h q) k' = ix4 b h q k' := funext fun a => Fin.ext (by
    match a with
    | ⟨0, _⟩ => rfl
    | ⟨1, _⟩ => rfl
    | ⟨2, _⟩ => rfl
    | ⟨3, _⟩ => rfl)
  rw [es, exp_eq]

/-! ## One head's context, the context row, and the output -/

theorem headval_eq (x0 : (⟨S2x2048x1024, .f32⟩ : BufTy).Contents (Elt Ideal)) (x1 : (⟨S2x1x1x2048, .f32⟩ : BufTy).Contents (Elt Ideal))
    (x2 x3 x4 : (⟨S1024x1024, .f32⟩ : BufTy).Contents (Elt Ideal)) (b : Fin 2) (h : Fin 16) (q : Fin 2048) (d : Fin 64) :
    val_main_v26 (F := Ideal) x0 x1 x2 x3 x4 (ix4 b h q d)
      = headVal (fun d => proj (fun s d => x0 (ix3 b s d)) x2 q (col h d)) (fun k d => proj (fun s d => x0 (ix3 b s d)) x3 k (col h d)) (fun k => x1 (ix4 b (0 : Fin 1) (0 : Fin 1) k))
          (fun k => proj (fun s d => x0 (ix3 b s d)) x4 k (col h d)) := by
  rw [val_main_v26_apply]
  unfold headVal
  refine Finset.sum_congr rfl fun k _ => ?_
  have el : lidx_main_v26 (ix4 b h q d) k = ix4 b h q k := funext fun a => Fin.ext (by
    match a with
    | ⟨0, _⟩ => rfl
    | ⟨1, _⟩ => rfl
    | ⟨2, _⟩ => rfl
    | ⟨3, _⟩ => rfl)
  have er : ridx_main_v26 (ix4 b h q d) k = ix4 b h k d := funext fun a => Fin.ext (by
    match a with
    | ⟨0, _⟩ => rfl
    | ⟨1, _⟩ => rfl
    | ⟨2, _⟩ => rfl
    | ⟨3, _⟩ => rfl)
  have hs : (fun k => val_main_v14 (F := Ideal) x0 x1 x2 x3 (ix4 b h q k))
      = scoreRow (fun d => proj (fun s d => x0 (ix3 b s d)) x2 q (col h d)) (fun k d => proj (fun s d => x0 (ix3 b s d)) x3 k (col h d)) (fun k => x1 (ix4 b (0 : Fin 1) (0 : Fin 1) k)) :=
    funext fun k => scores_eq x0 x1 x2 x3 b h q k
  rw [el, er, soft_eq, proj_v, hs]

theorem ctx_eq (x0 : (⟨S2x2048x1024, .f32⟩ : BufTy).Contents (Elt Ideal)) (x1 : (⟨S2x1x1x2048, .f32⟩ : BufTy).Contents (Elt Ideal))
    (x2 x3 x4 : (⟨S1024x1024, .f32⟩ : BufTy).Contents (Elt Ideal)) (b : Fin 2) (s : Fin 2048) (e : Fin 1024) :
    val_main_v28 (F := Ideal) x0 x1 x2 x3 x4 (ix3 b s e)
      = ctxOf (proj (fun s d => x0 (ix3 b s d)) x2 s) (proj (fun s d => x0 (ix3 b s d)) x3) (proj (fun s d => x0 (ix3 b s d)) x4) (fun k => x1 (ix4 b (0 : Fin 1) (0 : Fin 1) k)) e := by
  rw [val_main_v28_apply, val_main_v27_apply]
  have e1 : idx_main_v27 (idx_main_v28 (ix3 b s e)) = ix4 b (hd e) s (ld e) := funext fun a => Fin.ext (by
    have hb := b.isLt; have hs := s.isLt; have he := e.isLt
    match a with
    | ⟨0, _⟩ => show ((b.val * 2048 + s.val) * 1024 + e.val) / 2097152 = b.val; omega
    | ⟨1, _⟩ => show ((b.val * 2048 + s.val) * 1024 + e.val) / 64 % 16 = e.val / 64; omega
    | ⟨2, _⟩ => show ((b.val * 2048 + s.val) * 1024 + e.val) / 1024 % 2048 = s.val; omega
    | ⟨3, _⟩ => show ((b.val * 2048 + s.val) * 1024 + e.val) % 64 = e.val % 64; omega)
  rw [e1, headval_eq]
  unfold ctxOf
  simp only [col_hd_ld]

theorem out_eq (x0 : (⟨S2x2048x1024, .f32⟩ : BufTy).Contents (Elt Ideal)) (x1 : (⟨S2x1x1x2048, .f32⟩ : BufTy).Contents (Elt Ideal))
    (x2 x3 x4 x5 : (⟨S1024x1024, .f32⟩ : BufTy).Contents (Elt Ideal)) (b : Fin 2) (s : Fin 2048) (e : Fin 1024) :
    val_main_v29 (F := Ideal) x0 x1 x2 x3 x4 x5 (ix3 b s e)
      = outRow (fun s d => x0 (ix3 b s d)) (fun k => x1 (ix4 b (0 : Fin 1) (0 : Fin 1) k)) x2 x3 x4 x5 s e := by
  rw [val_main_v29_apply]
  unfold outRow
  refine Finset.sum_congr rfl fun k _ => ?_
  have el : lidx_main_v29 (ix3 b s e) k = ix3 b s k := funext fun a => Fin.ext (by
    match a with
    | ⟨0, _⟩ => rfl
    | ⟨1, _⟩ => rfl
    | ⟨2, _⟩ => rfl)
  have er : ridx_main_v29 (ix3 b s e) k = ix2 e k := funext fun a => Fin.ext (by
    match a with
    | ⟨0, _⟩ => rfl
    | ⟨1, _⟩ => rfl)
  rw [el, er, ctx_eq]

/-- The reference's result is the specification function. -/
theorem ref_eq (x0 : (⟨Cert.ReferenceIdeal.S2x2048x1024, .f32⟩ : BufTy).Contents (Elt Ideal)) (x1 : (⟨Cert.ReferenceIdeal.S2x1x1x2048, .f32⟩ : BufTy).Contents (Elt Ideal)) (x2 x3 x4 x5 : (⟨Cert.ReferenceIdeal.S1024x1024, .f32⟩ : BufTy).Contents (Elt Ideal)) :
    Cert.ReferenceIdeal.Read.val_main_v29 (F := Ideal) x0 x1 x2 x3 x4 x5 = Cert.Attn.G x0 x1 x2 x3 x4 x5 := by
  funext i
  obtain ⟨b, s, e, rfl⟩ : ∃ (b : Fin 2) (s : Fin 2048) (e : Fin 1024), i = ix3 b s e := ⟨i 0, i 1, i 2, eq_ix3 i⟩
  rw [Cert.Attn.G_ix3]
  exact out_eq x0 x1 x2 x3 x4 x5 b s e

end Cert.RefAttn

end
-- ==== Proof.lean ====
/-
  A fused multi-head self-attention kernel against its jnp reference, at the exact extended-real reading.

  Both programs compute, for every batch member, query row and output column, the attention function `Cert.Attn.G`
  of the six argument arrays (Proof/Spec.lean): the three projections, the scaled and masked scores of each of the
  sixteen heads, the softmax with the row maximum subtracted, the contexts, and the output projection. The kernel
  multiplies the scores by the f32 word of 1/8 where the reference divides by the square root of 64; on the extended
  reals the two agree for every value, so no finiteness is used. The kernel's side (Proof/KernelValue.lean) reads the
  result array off the grid run, block by block, with the key and value caches carried between grid points; the
  reference's side (Proof/RefValue.lean) reads its run's result term one operation at a time.
-/
import proofs.«111237_j47356309406164_2_alg».proof.Defs
import proofs.«111237_j47356309406164_2_alg».proof.Proof.Gen.Kernel
import proofs.«111237_j47356309406164_2_alg».proof.Proof.Gen.Kernel.Skeleton
import proofs.«111237_j47356309406164_2_alg».proof.Proof.Gen.Kernel.Launch
import proofs.«111237_j47356309406164_2_alg».proof.Proof.Gen.Kernel.Points
import proofs.«111237_j47356309406164_2_alg».proof.Proof.Gen.Kernel.Frame
import proofs.«111237_j47356309406164_2_alg».proof.Proof.Gen.KernelIdeal
import proofs.«111237_j47356309406164_2_alg».proof.Proof.Gen.KernelIdeal.Skeleton
import proofs.«111237_j47356309406164_2_alg».proof.Proof.Gen.KernelIdeal.Launch
import proofs.«111237_j47356309406164_2_alg».proof.Proof.Gen.KernelIdeal.Points
import proofs.«111237_j47356309406164_2_alg».proof.Proof.Gen.KernelIdeal.Frame
import proofs.«111237_j47356309406164_2_alg».proof.Proof.Gen.ReferenceIdeal
import proofs.«111237_j47356309406164_2_alg».proof.Proof.Gen.Pre_finite_inputs
import proofs.«111237_j47356309406164_2_alg».proof.Proof.Gen.KernelIdeal.Value
import proofs.«111237_j47356309406164_2_alg».proof.Proof.Gen.ReferenceIdeal.Run
import proofs.«111237_j47356309406164_2_alg».proof.Proof.Gen.ReferenceIdeal.Read
import proofs.«111237_j47356309406164_2_alg».proof.Proof.KernelValue
import proofs.«111237_j47356309406164_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel (hKernel := Cert.Kernel.Gen.facts) (hPre_finite_inputs := Cert.Pre_finite_inputs.Gen.facts) :=
  fun m ρ _ => Cert.Kernel.Gen.frame m ρ

/-- So does the kernel read over the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments as they were: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the six arguments both programs end with the attention function of those arguments in
    their result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.KV.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.RefAttn.ref_eq, (hagree c).1, (hagree c).2.1, (hagree c).2.2.1,
    (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
